-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S1 : Shape := ⟨1, ![1]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg13 : FVec F S16 .f32) (main_arg14 : FVec F S1 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64x32 .f32) (main_arg10 : FVec F S32 .f32) (main_arg11 : FVec F S1 .f32) (main_arg12 : FVec F S32x16 .f32) (main_arg13 : FVec F S16 .f32) (main_arg14 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S32x16 .f32 := Host.absf main_arg12
  let main_cst_18 : FVec F S_ .f32 := constant S_ .f32 0x7F800000#32
  let main_v50 : FVec F S32x16 .f32 := broadcastInDim S32x16 ![] bcast_S_S32x16 main_cst_18
  fn_part3 (F := F) main_arg13 main_arg14 main_v48 main_v49 main_v50

def fn_part1 {F : FTy → Type} [FloatOps F] (main_arg6 : FVec F S128x64 .f32) (main_arg7 : FVec F S64 .f32) (main_arg8 : FVec F S1 .f32) (main_arg9 : FVec F S64x32 .f32) (main_arg10 : FVec F S32 .f32) (main_arg11 : FVec F S1 .f32) (main_arg12 : FVec F S32x16 .f32) (main_arg13 : FVec F S16 .f32) (main_arg14 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S1 .f32) (main_arg6 : FVec F S128x64 .f32) (main_arg7 : FVec F S64 .f32) (main_arg8 : FVec F S1 .f32) (main_arg9 : FVec F S64x32 .f32) (main_arg10 : FVec F S32 .f32) (main_arg11 : FVec F S1 .f32) (main_arg12 : FVec F S32x16 .f32) (main_arg13 : FVec F S16 .f32) (main_arg14 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_arg9 main_arg10 main_arg11 main_arg12 main_arg13 main_arg14 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S1 : Shape := ⟨1, ![1]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S1x1 : Shape := ⟨2, ![1, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩
abbrev S5000 : Shape := ⟨1, ![5000]⟩

abbrev nBuf : Space → Nat
  | .hbm => 107
  | .vmem => 60
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S1, .f32⟩
  | .hbm, ⟨6, _⟩ => ⟨S128x64, .f32⟩
  | .hbm, ⟨7, _⟩ => ⟨S64, .f32⟩
  | .hbm, ⟨8, _⟩ => ⟨S1, .f32⟩
  | .hbm, ⟨9, _⟩ => ⟨S64x32, .f32⟩
  | .hbm, ⟨10, _⟩ => ⟨S32, .f32⟩
  | .hbm, ⟨11, _⟩ => ⟨S1, .f32⟩
  | .hbm, ⟨12, _⟩ => ⟨S32x16, .f32⟩
  | .hbm, ⟨13, _⟩ => ⟨S16, .f32⟩
  | .hbm, ⟨14, _⟩ => ⟨S1, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S1x1, .f32⟩
  | .hbm, ⟨55, _⟩ => ⟨S100000x128, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S1x64, .f32⟩
  | .hbm, ⟨71, _⟩ => ⟨S1x1, .f32⟩
  | .hbm, ⟨72, _⟩ => ⟨S100000x64, .f32⟩
  | .hbm, ⟨73, _⟩ => ⟨S100000x32, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x32, .f32⟩
  | .hbm, ⟨83, _⟩ => ⟨S_, .f32⟩
  | .hbm, ⟨84, _⟩ => ⟨S100000x32, .f32⟩
  | .hbm, ⟨85, _⟩ => ⟨S1600000x1, .i32⟩
  | .hbm, ⟨86, _⟩ => ⟨S100000x32, .f32⟩
  | .hbm, ⟨87, _⟩ => ⟨S1x32, .f32⟩
  | .hbm, ⟨88, _⟩ => ⟨S1x1, .f32⟩
  | .hbm, ⟨89, _⟩ => ⟨S100000x32, .f32⟩
  | .hbm, ⟨90, _⟩ => ⟨S100000x16, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x16, .f32⟩
  | .hbm, ⟨100, _⟩ => ⟨S_, .f32⟩
  | .hbm, ⟨101, _⟩ => ⟨S100000x16, .f32⟩
  | .hbm, ⟨102, _⟩ => ⟨S1600000x1, .i32⟩
  | .hbm, ⟨103, _⟩ => ⟨S100000x16, .f32⟩
  | .hbm, ⟨104, _⟩ => ⟨S1x16, .f32⟩
  | .hbm, ⟨105, _⟩ => ⟨S1x1, .f32⟩
  | .hbm, ⟨106, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x1, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S1x64, .f32⟩
  | .local _ .vmem, ⟨27, _⟩ => ⟨S1x1, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S64x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S5000x32, .f32⟩
  | .local _ .vmem, ⟨39, _⟩ => ⟨S5000x1, .f32⟩
  | .local _ .vmem, ⟨40, _⟩ => ⟨S5000x1, .f32⟩
  | .local _ .vmem, ⟨41, _⟩ => ⟨S1x32, .f32⟩
  | .local _ .vmem, ⟨42, _⟩ => ⟨S1x1, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S5000x1, .f32⟩
  | .local _ .vmem, ⟨48, _⟩ => ⟨S5000x1, .f32⟩
  | .local _ .vmem, ⟨49, _⟩ => ⟨S32x16, .f32⟩
  | .local _ .vmem, ⟨50, _⟩ => ⟨S5000x16, .f32⟩
  | .local _ .vmem, ⟨51, _⟩ => ⟨S5000x16, .f32⟩
  | .local _ .vmem, ⟨52, _⟩ => ⟨S5000x16, .f32⟩
  | .local _ .vmem, ⟨53, _⟩ => ⟨S5000x16, .f32⟩
  | .local _ .vmem, ⟨54, _⟩ => ⟨S5000x1, .f32⟩
  | .local _ .vmem, ⟨55, _⟩ => ⟨S5000x1, .f32⟩
  | .local _ .vmem, ⟨56, _⟩ => ⟨S1x16, .f32⟩
  | .local _ .vmem, ⟨57, _⟩ => ⟨S1x1, .f32⟩
  | .local _ .vmem, ⟨58, _⟩ => ⟨S5000x16, .f32⟩
  | .local _ .vmem, ⟨59, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_4 : Ref sig .tc := ⟨.hbm, 32, rfl⟩
abbrev main_v12 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg4_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem4_0 : DmaSem sig := 58
abbrev cc7_sem4_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x16 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S256x128_S256x128_0_0 : ∀ a, (![0, 0] : Fin 2 → Nat) a + S256x128.size a ≤ S256x128.size a
  h_S256x128 : 0 < S256x128.numel
  broadcasts_S5000x1_S5000x256 : S5000x1.Broadcasts S5000x256
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S5000x1_S5000x128 : S5000x1.Broadcasts S5000x128
  broadcasts_S1x128_S5000x128 : S1x128.Broadcasts S5000x128
  broadcasts_S1x1_S5000x128 : S1x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  broadcasts_S1x1_S5000x64 : S1x1.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  broadcasts_S1x1_S5000x32 : S1x1.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S5000x1_S5000x16 : S5000x1.Broadcasts S5000x16
  broadcasts_S1x16_S5000x16 : S1x16.Broadcasts S5000x16
  broadcasts_S1x1_S5000x16 : S1x1.Broadcasts S5000x16
  reduces_S5000x16_S5000 : S5000x16.Reduces [1] S5000
  shapeCasts_S5000_S5000x1 : S5000.ShapeCasts S5000x1
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x16.size a ≤ S32x16.size a
  hwx6_2 : ∀ i : grid6.Coords, EltTy.bits .f32 = 32 ∨ (Rect.block (s := S32x16) S32x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S100000x16.size a
  hwx6_3 : ∀ i : grid6.Coords, EltTy.bits .f32 = 32 ∨ (Rect.block (s := S100000x16) S5000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S100000x16.size a
  hwx7_0 : ∀ i : grid7.Coords, EltTy.bits .f32 = 32 ∨ (Rect.block (s := S100000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x16.size a ≤ S100000x16.size a
  hwx7_4 : ∀ i : grid7.Coords, EltTy.bits .f32 = 32 ∨ (Rect.block (s := S100000x16) S5000x16.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v44) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v58) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S32x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v59) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v69) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v70) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v71) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v72) S5000x16.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S1 : Shape := ⟨1, ![1]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S1x1 : Shape := ⟨2, ![1, 1]⟩
abbrev S100000x64 : Shape := ⟨2, ![100000, 64]⟩
abbrev S1600000x64 : Shape := ⟨2, ![1600000, 64]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 167
  | .vmem => 0
  | .smem => 0
  | _ => 0

abbrev hbmTy0_0 (i : Nat) : BufTy := match i % 128 with
  | 0 => ⟨S100000x256, .f32⟩
  | 1 => ⟨S1600000, .i32⟩
  | 2 => ⟨S1600000, .i32⟩
  | 3 => ⟨S256x128, .f32⟩
  | 4 => ⟨S128, .f32⟩
  | 5 => ⟨S1, .f32⟩
  | 6 => ⟨S128x64, .f32⟩
  | 7 => ⟨S64, .f32⟩
  | 8 => ⟨S1, .f32⟩
  | 9 => ⟨S64x32, .f32⟩
  | 10 => ⟨S32, .f32⟩
  | 11 => ⟨S1, .f32⟩
  | 12 => ⟨S32x16, .f32⟩
  | 13 => ⟨S16, .f32⟩
  | 14 => ⟨S1, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x256, .f32⟩
  | 39 => ⟨S100000x256, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x1, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S1x1, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x1, .f32⟩
  | 67 => ⟨S100000x128, .f32⟩
  | 68 => ⟨S100000x128, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S100000x1, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S1x1, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x1, .f32⟩
  | 96 => ⟨S100000x64, .f32⟩
  | 97 => ⟨S100000x64, .f32⟩
  | 98 => ⟨S100000x32, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x32, .f32⟩
  | 108 => ⟨S_, .f32⟩
  | 109 => ⟨S100000x32, .f32⟩
  | 110 => ⟨S1600000x1, .i32⟩
  | 111 => ⟨S100000x32, .f32⟩
  | 112 => ⟨S100000x1, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S1x1, .f32⟩
  | 119 => ⟨S100000x32, .f32⟩
  | 120 => ⟨S100000x32, .f32⟩
  | 121 => ⟨S_, .f32⟩
  | 122 => ⟨S100000x32, .f32⟩
  | 123 => ⟨S100000x32, .f32⟩
  | 124 => ⟨S100000x1, .f32⟩
  | 125 => ⟨S100000x32, .f32⟩
  | 126 => ⟨S100000x32, .f32⟩
  | 127 => ⟨S100000x16, .f32⟩
  | _ => ⟨S100000x256, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x16, .f32⟩
  | 9 => ⟨S_, .f32⟩
  | 10 => ⟨S100000x16, .f32⟩
  | 11 => ⟨S1600000x1, .i32⟩
  | 12 => ⟨S100000x16, .f32⟩
  | 13 => ⟨S100000x1, .f32⟩
  | 14 => ⟨S100000x16, .f32⟩
  | 15 => ⟨S100000x16, .f32⟩
  | 16 => ⟨S1x16, .f32⟩
  | 17 => ⟨S100000x16, .f32⟩
  | 18 => ⟨S100000x16, .f32⟩
  | 19 => ⟨S1x1, .f32⟩
  | 20 => ⟨S100000x16, .f32⟩
  | 21 => ⟨S100000x16, .f32⟩
  | 22 => ⟨S_, .f32⟩
  | 23 => ⟨S100000x16, .f32⟩
  | 24 => ⟨S100000x16, .f32⟩
  | 25 => ⟨S_, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x16, .f32⟩
  | 32 => ⟨S100000x16, .f32⟩
  | 33 => ⟨S100000x16, .f32⟩
  | 34 => ⟨S_, .f32⟩
  | 35 => ⟨S100000, .f32⟩
  | 36 => ⟨S100000x1, .f32⟩
  | 37 => ⟨S100000x16, .f32⟩
  | 38 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call0_cst : Ref sig .tc := ⟨.hbm, 63, rfl⟩
abbrev main_call0_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_11 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call2_cst : Ref sig .tc := ⟨.hbm, 121, rfl⟩
abbrev main_call2_v0 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_14 : Ref sig .tc := ⟨.hbm, 128, rfl⟩
abbrev main_v91 : Ref sig .tc := ⟨.hbm, 129, rfl⟩
abbrev main_v92 : Ref sig .tc := ⟨.hbm, 130, rfl⟩
abbrev main_c_15 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_16 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call3_cst : Ref sig .tc := ⟨.hbm, 150, rfl⟩
abbrev main_call3_v0 : Ref sig .tc := ⟨.hbm, 151, rfl⟩
abbrev main_v110 : Ref sig .tc := ⟨.hbm, 152, rfl⟩
abbrev main_cst_17 : Ref sig .tc := ⟨.hbm, 153, rfl⟩
abbrev main_v111 : Ref sig .tc := ⟨.hbm, 154, rfl⟩
abbrev main_cst_18 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_19 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x1_S100000x64_0_1 : S1x1.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1x1_S100000x32_0_1 : S1x1.BroadcastsInDim S100000x32 (![0, 1] : Fin 2 → Fin S100000x32.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1x1_S100000x16_0_1 : S1x1.BroadcastsInDim S100000x16 (![0, 1] : Fin 2 → Fin S100000x16.rank)
  reducesTo_S100000x16_S100000_d1 : S100000x16.ReducesTo [1] S100000
  h_S_ : 0 < S_.numel
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KRun.lean ====
/-
  The kernel program's run with its result named.

  The program is thirteen segments: stretches of plain array operations and eight block-wise regions.  Folding the
  segments over the launch contents gives the contents of every buffer at each boundary; every weakly fair execution
  terminates in a state whose buffers hold the last boundary's contents.  Here the result array is read off that last
  boundary, beside the argument arrays, which end as launched.
-/
import proofs.«171604_j10316511445242_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the argument arrays as launched. -/
theorem run_fold : θ_run defs (onTc (τ := τ) (main (F := F))) ⟨m, fun _ => 0, ρ⟩ (fun r => ∀ c : Dev nD,
      r.2.mem ((c.tc : Thread nD τ).loc main_v72) = W13 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v72 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.Result

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«171604_j10316511445242_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.Stage.lean ====
/-
  The three stages of a graph-convolution layer, read at one index on the extended reals.

  A layer scales every row of an [M, K] array by that row's entry of an [M, 1] column and multiplies by a
  [K, N] weight; after the edges' aggregation it scales the rows of an [M, N] array by a second column, adds a
  [1, N] row to every row and a single [1, 1] entry everywhere, and clips at zero; the last layer then
  normalises every row by the exponentials' sum after subtracting the row's maximum.  Each stage is written
  here once over whole arrays, in the operations a plain array program uses, and read at (R, c); and each
  stage's spelling over one block of rows — a matrix product into a zero accumulator, columns and rows
  repeated over the block, reductions along the second axis — is read at (r, c) into the same expression.
  Nothing is rearranged: both spellings are the same sums, maxima and quotients entry by entry, so no law of
  the extended reals beyond 0 + x = x is used.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«171604_j10316511445242_1_alg».proof.Proof.LibRowOps
import proofs.«171604_j10316511445242_1_alg».proof.Proof.LibDense

noncomputable section

namespace Cert.Stage

open Idealize.ShloMosaic Idealize.ShloMosaic.ValueIdx Cert.RowOps Cert.Dense

/-- The value of the word of minus infinity. -/
abbrev ninf : EReal := Ideal.ofBits .f32 0xFF800000#32

/-! ## Columns, rows and single entries repeated over an array -/

section Layout

variable {α : Type} {a b : Nat}

/-- An [a, 1] column repeated along a second axis, in the whole-array spelling: at (i, j) the column at (i, 0). -/
theorem hostSpread_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun ax => by
    match ax with
    | ⟨0, _⟩ =>
      show i.val = if a = 1 then 0 else i.val
      split
      · have := i.isLt; omega
      · rfl
    | ⟨1, _⟩ => show (0 : Nat) = if (1 : Nat) = 1 then 0 else j.val; rw [if_pos rfl])

/-- A [1, b] row repeated over a rows, in the whole-array spelling: at (i, j) the row at (0, j). -/
theorem hostRow_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply ![0, 1] h x (ix2 i j) (ix2 (0 : Fin 1) j) (fun ax => by
    match ax with
    | ⟨0, _⟩ => show (0 : Nat) = if (1 : Nat) = 1 then 0 else i.val; rw [if_pos rfl]
    | ⟨1, _⟩ =>
      show j.val = if b = 1 then 0 else j.val
      split
      · have := j.isLt; omega
      · rfl)

/-- A [1, 1] entry repeated everywhere, in the whole-array spelling. -/
theorem hostOne_apply (x : (⟨2, ![1, 1]⟩ : Shape).Idx → α)
    (h : (⟨2, ![1, 1]⟩ : Shape).BroadcastsInDim ⟨2, ![a, b]⟩ ![0, 1]) (i : Fin a) (j : Fin b) :
    broadcastInDim ⟨2, ![a, b]⟩ ![0, 1] h x (ix2 i j) = x (ix2 (0 : Fin 1) (0 : Fin 1)) :=
  broadcastInDim_apply ![0, 1] h x (ix2 i j) (ix2 (0 : Fin 1) (0 : Fin 1)) (fun ax => by
    match ax with
    | ⟨0, _⟩ => show (0 : Nat) = if (1 : Nat) = 1 then 0 else i.val; rw [if_pos rfl]
    | ⟨1, _⟩ => show (0 : Nat) = if (1 : Nat) = 1 then 0 else j.val; rw [if_pos rfl])

/-- A length-a vector as an [a, 1] column, in the whole-array spelling: at (i, u) the vector at i. -/
theorem hostColumn_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) (fun ax => by
    match ax with
    | ⟨0, _⟩ =>
      show i.val = if a = 1 then 0 else i.val
      split
      · have := i.isLt; omega
      · rfl)

/-- A [1, b] row repeated over a rows, in the block spelling. -/
theorem blockRow_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show (0 : Nat) = if (1 : Nat) = 1 then 0 else i.val; rw [if_pos rfl]
    | ⟨1, _⟩ =>
      show j.val = if b = 1 then 0 else j.val
      split
      · have := j.isLt; omega
      · rfl)

/-- A [1, 1] entry repeated everywhere, in the block spelling. -/
theorem blockOne_apply (x : (⟨2, ![1, 1]⟩ : Shape).Idx → α) (h : (⟨2, ![1, 1]⟩ : Shape).Broadcasts ⟨2, ![a, b]⟩)
    (i : Fin a) (j : Fin b) : broadcastTo ⟨2, ![a, b]⟩ x h (ix2 i j) = x (ix2 (0 : Fin 1) (0 : Fin 1)) :=
  broadcastTo_apply x h _ _ (fun c => by
    match c with
    | ⟨0, _⟩ => show (0 : Nat) = if (1 : Nat) = 1 then 0 else i.val; rw [if_pos rfl]
    | ⟨1, _⟩ => show (0 : Nat) = if (1 : Nat) = 1 then 0 else j.val; rw [if_pos rfl])

end Layout

/-! ## Scaled rows times a weight -/

section Scale

variable {M K N : Nat}

/-- Whole arrays: every row of h scaled by its entry of the column, times the weight. -/
def scaleDot (d : DotDims ⟨2, ![M, K]⟩ ⟨2, ![K, N]⟩ ⟨2, ![M, N]⟩)
    (hb : (⟨2, ![M, 1]⟩ : Shape).BroadcastsInDim ⟨2, ![M, K]⟩ ![0, 1])
    (h : FVec Ideal ⟨2, ![M, K]⟩ .f32) (col : FVec Ideal ⟨2, ![M, 1]⟩ .f32) (W : FVec Ideal ⟨2, ![K, N]⟩ .f32) :
    FVec Ideal ⟨2, ![M, N]⟩ .f32 :=
  Host.dotGeneral d none (mulf h (broadcastInDim ⟨2, ![M, K]⟩ ![0, 1] hb col)) W

theorem scaleDot_apply {d : DotDims ⟨2, ![M, K]⟩ ⟨2, ![K, N]⟩ ⟨2, ![M, N]⟩} (hd : IsPlain d)
    (hb : (⟨2, ![M, 1]⟩ : Shape).BroadcastsInDim ⟨2, ![M, K]⟩ ![0, 1])
    (h : FVec Ideal ⟨2, ![M, K]⟩ .f32) (col : FVec Ideal ⟨2, ![M, 1]⟩ .f32) (W : FVec Ideal ⟨2, ![K, N]⟩ .f32)
    (R : Fin M) (c : Fin N) :
    scaleDot d hb h col W (ix2 R c) = ∑ k : Fin K, (h (ix2 R k) * col (ix2 R (0 : Fin 1))) * W (ix2 k c) := by
  unfold scaleDot
  refine (hostDot_apply hd none .single _ W R c).trans (Finset.sum_congr rfl fun k _ => ?_)
  rw [mulf_apply, hostSpread_apply]

/-- One block of rows: the same, through a product into a zero accumulator (changes of float format are the identity). -/
theorem scaleDotBlock_apply {B : Nat} {d : DotDims ⟨2, ![B, K]⟩ ⟨2, ![K, N]⟩ ⟨2, ![B, N]⟩} (hd : IsPlain d)
    (x : FVec Ideal ⟨2, ![B, K]⟩ .f32) (n : FVec Ideal ⟨2, ![B, 1]⟩ .f32) (w : FVec Ideal ⟨2, ![K, N]⟩ .f32)
    (hs : (⟨2, ![B, 1]⟩ : Shape).ShapeCasts ⟨2, ![B, 1]⟩) (hbt : (⟨2, ![B, 1]⟩ : Shape).Broadcasts ⟨2, ![B, K]⟩)
    (hlt : FTy.bf16.bits < FTy.f32.bits) (r : Fin B) (c : Fin N) :
    matmul d none (truncf .bf16 (mulf x (broadcastTo ⟨2, ![B, K]⟩ (shapeCast ⟨2, ![B, 1]⟩ n hs) hbt)) hlt) (truncf .bf16 w hlt)
        (constant ⟨2, ![B, N]⟩ .f32 0x00000000#32) (ix2 r c)
      = ∑ k : Fin K, (x (ix2 r k) * n (ix2 r (0 : Fin 1))) * w (ix2 k c) := by
  refine (matmul_zero_apply hd none _ _ r c).trans (Finset.sum_congr rfl fun k _ => ?_)
  rw [truncf_apply, truncf_apply, mulf_apply, spread_apply, shapeCast_self]

/-- The same when the rows are first re-read at their own shape. -/
theorem scaleDotBlockCast_apply {B : Nat} {d : DotDims ⟨2, ![B, K]⟩ ⟨2, ![K, N]⟩ ⟨2, ![B, N]⟩} (hd : IsPlain d)
    (x : FVec Ideal ⟨2, ![B, K]⟩ .f32) (n : FVec Ideal ⟨2, ![B, 1]⟩ .f32) (w : FVec Ideal ⟨2, ![K, N]⟩ .f32)
    (hx : (⟨2, ![B, K]⟩ : Shape).ShapeCasts ⟨2, ![B, K]⟩)
    (hs : (⟨2, ![B, 1]⟩ : Shape).ShapeCasts ⟨2, ![B, 1]⟩) (hbt : (⟨2, ![B, 1]⟩ : Shape).Broadcasts ⟨2, ![B, K]⟩)
    (hlt : FTy.bf16.bits < FTy.f32.bits) (r : Fin B) (c : Fin N) :
    matmul d none (truncf .bf16 (mulf (shapeCast ⟨2, ![B, K]⟩ x hx) (broadcastTo ⟨2, ![B, K]⟩ (shapeCast ⟨2, ![B, 1]⟩ n hs) hbt)) hlt)
        (truncf .bf16 w hlt) (constant ⟨2, ![B, N]⟩ .f32 0x00000000#32) (ix2 r c)
      = ∑ k : Fin K, (x (ix2 r k) * n (ix2 r (0 : Fin 1))) * w (ix2 k c) := by
  rw [shapeCast_self]
  exact scaleDotBlock_apply hd x n w hs hbt hlt r c

end Scale

/-! ## Scaled rows plus a row plus one entry, clipped at zero -/

section Clip

variable {M N : Nat}

/-- Whole arrays. -/
def affineClip (hc : (⟨2, ![M, 1]⟩ : Shape).BroadcastsInDim ⟨2, ![M, N]⟩ ![0, 1])
    (hr : (⟨2, ![1, N]⟩ : Shape).BroadcastsInDim ⟨2, ![M, N]⟩ ![0, 1])
    (ho : (⟨2, ![1, 1]⟩ : Shape).BroadcastsInDim ⟨2, ![M, N]⟩ ![0, 1])
    (h0 : (⟨0, ![]⟩ : Shape).BroadcastsInDim ⟨2, ![M, N]⟩ ![])
    (a : FVec Ideal ⟨2, ![M, N]⟩ .f32) (col : FVec Ideal ⟨2, ![M, 1]⟩ .f32) (row : FVec Ideal ⟨2, ![1, N]⟩ .f32)
    (one : FVec Ideal ⟨2, ![1, 1]⟩ .f32) : FVec Ideal ⟨2, ![M, N]⟩ .f32 :=
  maximumf (addf (addf (mulf a (broadcastInDim ⟨2, ![M, N]⟩ ![0, 1] hc col)) (broadcastInDim ⟨2, ![M, N]⟩ ![0, 1] hr row))
      (broadcastInDim ⟨2, ![M, N]⟩ ![0, 1] ho one))
    (broadcastInDim ⟨2, ![M, N]⟩ ![] h0 (constant (F := Ideal) ⟨0, ![]⟩ .f32 0x00000000#32))

theorem affineClip_apply (hc : (⟨2, ![M, 1]⟩ : Shape).BroadcastsInDim ⟨2, ![M, N]⟩ ![0, 1])
    (hr : (⟨2, ![1, N]⟩ : Shape).BroadcastsInDim ⟨2, ![M, N]⟩ ![0, 1])
    (ho : (⟨2, ![1, 1]⟩ : Shape).BroadcastsInDim ⟨2, ![M, N]⟩ ![0, 1])
    (h0 : (⟨0, ![]⟩ : Shape).BroadcastsInDim ⟨2, ![M, N]⟩ ![])
    (a : FVec Ideal ⟨2, ![M, N]⟩ .f32) (col : FVec Ideal ⟨2, ![M, 1]⟩ .f32) (row : FVec Ideal ⟨2, ![1, N]⟩ .f32)
    (one : FVec Ideal ⟨2, ![1, 1]⟩ .f32) (R : Fin M) (c : Fin N) :
    affineClip hc hr ho h0 a col row one (ix2 R c)
      = max ((a (ix2 R c) * col (ix2 R (0 : Fin 1)) + row (ix2 (0 : Fin 1) c)) + one (ix2 (0 : Fin 1) (0 : Fin 1))) z := by
  unfold affineClip
  rw [maximumf_apply, addf_apply, addf_apply, mulf_apply, hostSpread_apply, hostRow_apply, hostOne_apply,
    broadcastInDim_scalar_apply, constant_apply]

/-- One block of rows. -/
theorem affineClipBlock_apply {B : Nat} (x : FVec Ideal ⟨2, ![B, N]⟩ .f32) (n : FVec Ideal ⟨2, ![B, 1]⟩ .f32)
    (b : FVec Ideal ⟨2, ![1, N]⟩ .f32) (s : FVec Ideal ⟨2, ![1, 1]⟩ .f32)
    (hx : (⟨2, ![B, N]⟩ : Shape).ShapeCasts ⟨2, ![B, N]⟩) (hn : (⟨2, ![B, 1]⟩ : Shape).ShapeCasts ⟨2, ![B, 1]⟩)
    (hb : (⟨2, ![1, N]⟩ : Shape).ShapeCasts ⟨2, ![1, N]⟩) (hs : (⟨2, ![1, 1]⟩ : Shape).ShapeCasts ⟨2, ![1, 1]⟩)
    (gn : (⟨2, ![B, 1]⟩ : Shape).Broadcasts ⟨2, ![B, N]⟩) (gb : (⟨2, ![1, N]⟩ : Shape).Broadcasts ⟨2, ![B, N]⟩)
    (gs : (⟨2, ![1, 1]⟩ : Shape).Broadcasts ⟨2, ![B, N]⟩) (r : Fin B) (c : Fin N) :
    maximumf (addf (addf (mulf (shapeCast ⟨2, ![B, N]⟩ x hx) (broadcastTo ⟨2, ![B, N]⟩ (shapeCast ⟨2, ![B, 1]⟩ n hn) gn))
          (broadcastTo ⟨2, ![B, N]⟩ (shapeCast ⟨2, ![1, N]⟩ b hb) gb))
        (broadcastTo ⟨2, ![B, N]⟩ (shapeCast ⟨2, ![1, 1]⟩ s hs) gs))
        (broadcast ⟨2, ![B, N]⟩ (Scalar.ofBits (F := Ideal) .f32 0x00000000#32)) (ix2 r c)
      = max ((x (ix2 r c) * n (ix2 r (0 : Fin 1)) + b (ix2 (0 : Fin 1) c)) + s (ix2 (0 : Fin 1) (0 : Fin 1))) z := by
  rw [maximumf_apply, addf_apply, addf_apply, mulf_apply, spread_apply, blockRow_apply, blockOne_apply, broadcast_apply,
    shapeCast_self, shapeCast_self, shapeCast_self, shapeCast_self]
  rfl

end Clip

/-! ## Rows normalised by their exponentials' sum -/

section Softmax

variable {M N : Nat}

/-- The exponential of an entry less its row's maximum (the maximum taken from minus infinity, twice). -/
def shifted (y : FVec Ideal ⟨2, ![M, N]⟩ .f32) (R : Fin M) (c : Fin N) : EReal :=
  Ideal.exp (y (ix2 R c) - max ninf ((Finset.univ : Finset (Fin N)).fold max ninf (fun k => y (ix2 R k))))

/-- The shifted exponential at (R, c) reads row R only. -/
theorem shifted_congr {B : Nat} (y : FVec Ideal ⟨2, ![B, N]⟩ .f32) (y' : FVec Ideal ⟨2, ![M, N]⟩ .f32) (r : Fin B) (R : Fin M)
    (h : ∀ k : Fin N, y (ix2 r k) = y' (ix2 R k)) (c : Fin N) : shifted y r c = shifted y' R c := by
  unfold shifted
  rw [h c, show (fun k => y (ix2 r k)) = fun k => y' (ix2 R k) from funext h]

/-- Whole arrays. -/
def rowSoftmax (hm : (⟨2, ![M, N]⟩ : Shape).ReducesTo [1] ⟨1, ![M]⟩) (hu : 0 < (⟨0, ![]⟩ : Shape).numel)
    (h0 : (⟨0, ![]⟩ : Shape).BroadcastsInDim ⟨1, ![M]⟩ ![])
    (hcol : (⟨1, ![M]⟩ : Shape).BroadcastsInDim ⟨2, ![M, 1]⟩ ![0])
    (hsp : (⟨2, ![M, 1]⟩ : Shape).BroadcastsInDim ⟨2, ![M, N]⟩ ![0, 1])
    (y : FVec Ideal ⟨2, ![M, N]⟩ .f32) : FVec Ideal ⟨2, ![M, N]⟩ .f32 :=
  Host.divf
    (Host.exp (subf y (broadcastInDim ⟨2, ![M, N]⟩ ![0, 1] hsp (broadcastInDim ⟨2, ![M, 1]⟩ ![0] hcol
      (maximumf (broadcastInDim ⟨1, ![M]⟩ ![] h0 (constant (F := Ideal) ⟨0, ![]⟩ .f32 0xFF800000#32))
        (Host.reduce FloatOps.maximumf y (constant (F := Ideal) ⟨0, ![]⟩ .f32 0xFF800000#32) hm hu))))))
    (broadcastInDim ⟨2, ![M, N]⟩ ![0, 1] hsp (broadcastInDim ⟨2, ![M, 1]⟩ ![0] hcol
      (Host.reduceAdd
        (Host.exp (subf y (broadcastInDim ⟨2, ![M, N]⟩ ![0, 1] hsp (broadcastInDim ⟨2, ![M, 1]⟩ ![0] hcol
          (maximumf (broadcastInDim ⟨1, ![M]⟩ ![] h0 (constant (F := Ideal) ⟨0, ![]⟩ .f32 0xFF800000#32))
            (Host.reduce FloatOps.maximumf y (constant (F := Ideal) ⟨0, ![]⟩ .f32 0xFF800000#32) hm hu))))))
        (constant (F := Ideal) ⟨0, ![]⟩ .f32 0x00000000#32) hm hu)))

/-- The whole-array quotient at an index. -/
theorem hostQuot_apply {s : Shape} (a b : FVec Ideal s .f32) (i : s.Idx) : Host.divf a b i = Ideal.div (a i) (b i) := rfl

theorem rowMaxHost_apply (hm : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![])
    (y : FVec Ideal ⟨2, ![M, N]⟩ .f32) (R : Fin M) :
    maximumf (broadcastInDim ⟨1, ![M]⟩ ![] h0 (constant (F := Ideal) ⟨0, ![]⟩ .f32 0xFF800000#32))
        (Host.reduce FloatOps.maximumf y (constant (F := Ideal) ⟨0, ![]⟩ .f32 0xFF800000#32) hm hu) (ix1 R)
      = max ninf ((Finset.univ : Finset (Fin N)).fold max ninf (fun k => y (ix2 R k))) := by
  rw [maximumf_apply, broadcastInDim_scalar_apply, constant_apply,
    Host.reduce_eq_fold_single FloatOps.maximumf y _ hm hr hu]
  refine congrArg (max ninf) ?_
  exact congrArg (Finset.fold max _ · _) (funext fun k => congrArg y (lift_row hr R k))

theorem shiftedHost_apply (hm : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![])
    (hcol : (⟨1, ![M]⟩ : Shape).BroadcastsInDim ⟨2, ![M, 1]⟩ ![0])
    (hsp : (⟨2, ![M, 1]⟩ : Shape).BroadcastsInDim ⟨2, ![M, N]⟩ ![0, 1])
    (y : FVec Ideal ⟨2, ![M, N]⟩ .f32) (R : Fin M) (c : Fin N) :
    Host.exp (subf y (broadcastInDim ⟨2, ![M, N]⟩ ![0, 1] hsp (broadcastInDim ⟨2, ![M, 1]⟩ ![0] hcol
      (maximumf (broadcastInDim ⟨1, ![M]⟩ ![] h0 (constant (F := Ideal) ⟨0, ![]⟩ .f32 0xFF800000#32))
        (Host.reduce FloatOps.maximumf y (constant (F := Ideal) ⟨0, ![]⟩ .f32 0xFF800000#32) hm hu))))) (ix2 R c)
      = shifted y R c := by
  show Ideal.exp (subf y _ (ix2 R c)) = _
  rw [subf_apply, hostSpread_apply, hostColumn_apply, rowMaxHost_apply hm hr hu h0 y R]
  rfl

/-- Whole arrays, at (R, c): the shifted exponential over the sum of the row's shifted exponentials. -/
theorem rowSoftmax_apply (hm : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![])
    (hcol : (⟨1, ![M]⟩ : Shape).BroadcastsInDim ⟨2, ![M, 1]⟩ ![0])
    (hsp : (⟨2, ![M, 1]⟩ : Shape).BroadcastsInDim ⟨2, ![M, N]⟩ ![0, 1])
    (y : FVec Ideal ⟨2, ![M, N]⟩ .f32) (R : Fin M) (c : Fin N) :
    rowSoftmax hm hu h0 hcol hsp y (ix2 R c) = Ideal.div (shifted y R c) (∑ k : Fin N, shifted y R k) := by
  unfold rowSoftmax
  rw [hostQuot_apply, shiftedHost_apply hm hr hu h0 hcol hsp y R c, hostSpread_apply, hostColumn_apply]
  simp only [Host.reduceAdd, Ideal.hostReduceAdd_def]
  rw [Ideal.hostReduceAdd_single hm hr]
  refine congrArg (Ideal.div _) ?_
  rw [constant_apply, Ideal.ofBits_zero_f32, zero_add]
  refine Finset.sum_congr rfl fun k _ => ?_
  rw [lift_row hr R k]
  exact shiftedHost_apply hm hr hu h0 hcol hsp y R k

/-- One block of rows, at (r, c): the same. -/
theorem rowSoftmaxBlock_apply {B : Nat} (y : FVec Ideal ⟨2, ![B, N]⟩ .f32)
    (hred : (⟨2, ![B, N]⟩ : Shape).Reduces [1] ⟨1, ![B]⟩) (hφ : FKind.Formats .f32)
    (hmx : (0xFF800000#32 : BitVec FTy.f32.bits) = FKind.maximumf.neutral .f32 hφ)
    (had : (0x00000000#32 : BitVec FTy.f32.bits) = FKind.add.neutral .f32 hφ)
    (hcs : (⟨1, ![B]⟩ : Shape).ShapeCasts ⟨2, ![B, 1]⟩) (hbt : (⟨2, ![B, 1]⟩ : Shape).Broadcasts ⟨2, ![B, N]⟩)
    (r : Fin B) (c : Fin N) :
    divf (exp (subf y (broadcastTo ⟨2, ![B, N]⟩ (shapeCast ⟨2, ![B, 1]⟩
          (maximumf (broadcast ⟨1, ![B]⟩ (Scalar.ofBits (F := Ideal) .f32 0xFF800000#32))
            (multiReduction .maximumf [1] ⟨1, ![B]⟩ y 0xFF800000#32 hred hφ hmx)) hcs) hbt)))
        (broadcastTo ⟨2, ![B, N]⟩ (shapeCast ⟨2, ![B, 1]⟩
          (multiReduction .add [1] ⟨1, ![B]⟩
            (exp (subf y (broadcastTo ⟨2, ![B, N]⟩ (shapeCast ⟨2, ![B, 1]⟩
              (maximumf (broadcast ⟨1, ![B]⟩ (Scalar.ofBits (F := Ideal) .f32 0xFF800000#32))
                (multiReduction .maximumf [1] ⟨1, ![B]⟩ y 0xFF800000#32 hred hφ hmx)) hcs) hbt)))
            0x00000000#32 hred hφ had) hcs) hbt) (ix2 r c)
      = Ideal.div (shifted y r c) (∑ k : Fin N, shifted y r k) := by
  have he : ∀ (r : Fin B) (c : Fin N),
      exp (subf y (broadcastTo ⟨2, ![B, N]⟩ (shapeCast ⟨2, ![B, 1]⟩
          (maximumf (broadcast ⟨1, ![B]⟩ (Scalar.ofBits (F := Ideal) .f32 0xFF800000#32))
            (multiReduction .maximumf [1] ⟨1, ![B]⟩ y 0xFF800000#32 hred hφ hmx)) hcs) hbt)) (ix2 r c)
        = shifted y r c := by
    intro r c
    show Ideal.exp (subf y _ (ix2 r c)) = _
    rw [subf_apply, spread_apply, column_apply, maximumf_apply, broadcast_apply, rowMax_apply]
    rfl
  rw [divf_apply, he r c, spread_apply, column_apply, rowSum_apply]
  exact congrArg (Ideal.div _) (Finset.sum_congr rfl fun k _ => he r k)

end Softmax

end Cert.Stage

end
-- ==== Proof.Region0.lean ====
/-
  Region 0 of the kernel program as one function of whole arrays.

  The region walks twenty blocks of 5000 rows.  At block t it reads rows 5000·t … 5000·t + 4999 of its row-wise
  inputs and the whole of its small inputs, and writes the same rows of its output: each row scaled by its entry of the column, times the weight.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem plain : Cert.RowOps.IsPlain dot_S5000x256_S256x128_S5000x128_1_0_0_1_n_n := ⟨rfl, rfl, rfl, rfl, rfl, rfl⟩

/-- The block indices of the four windows at point t: rows move with t, the weight stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem read_rows (c : Dev nD) (t : Fin cfg0.N) (r : Fin 5000) (k : Fin 256) (hR : t.val * 5000 + r.val < 100000) :
    iblk0 V c 0 t (ix2 r k) = V c main_arg0 (ix2 (⟨t.val * 5000 + r.val, hR⟩ : Fin 100000) k) := by
  obtain ⟨e0, e1, -⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 256 + 1 * k.val = k.val; omega

theorem read_col (c : Dev nD) (t : Fin cfg0.N) (r : Fin 5000) (hR : t.val * 5000 + r.val < 100000) :
    iblk0 V c 1 t (ix2 r (0 : Fin 1)) = V c main_v11 (ix2 (⟨t.val * 5000 + r.val, hR⟩ : Fin 100000) (0 : Fin 1)) := by
  obtain ⟨-, -, e2, e3, -⟩ := idx_facts t
  show V c main_v11 (((cfg0.win 1).blk t).view.emb (ix2 r (0 : Fin 1))) = _
  refine congrArg (V c main_v11) (funext fun a => Fin.ext ?_)
  match a with
  | ⟨0, _⟩ => show win0_1.index t (0 : Fin 2) * 5000 + 1 * r.val = t.val * 5000 + r.val; omega
  | ⟨1, _⟩ => show win0_1.index t (1 : Fin 2) * 1 + 1 * 0 = 0; omega

theorem read_weight (c : Dev nD) (t : Fin cfg0.N) (k : Fin 256) (q : Fin 128) :
    iblk0 V c 2 t (ix2 k q) = V c main_arg3 (ix2 k q) := by
  obtain ⟨-, -, -, -, e4, e5, -⟩ := idx_facts t
  show V c main_arg3 (((cfg0.win 2).blk t).view.emb (ix2 k q)) = _
  refine congrArg (V c main_arg3) (funext fun a => Fin.ext ?_)
  match a with
  | ⟨0, _⟩ => show win0_2.index t (0 : Fin 2) * 256 + 1 * k.val = k.val; omega
  | ⟨1, _⟩ => show win0_2.index t (1 : Fin 2) * 128 + 1 * q.val = q.val; omega

/-- What point t writes back is block t of the stage of the arrays as the region finds them. -/
theorem flushed_eq (d : DotDims S100000x256 S256x128 S100000x128) (hd : Cert.RowOps.IsPlain d)
    (hb : S100000x1.BroadcastsInDim S100000x256 ![0, 1]) (c : Dev nD) (t : Fin cfg0.N) :
    (dat0 V c).flushed 3 t = ((cfg0.win 3).blk t).view.read (Elt Ideal)
      (Cert.Stage.scaleDot d hb (V c main_arg0) (V c main_v11) (V c main_arg3)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  have ht : t.val < 20 := by have := t.isLt; have hN : cfg0.N = 20 := N_0; omega
  obtain ⟨-, -, -, -, -, -, e6, e7⟩ := idx_facts t
  funext j
  obtain ⟨r, q, rfl⟩ : ∃ (r : Fin 5000) (q : Fin 128), j = ix2 r q := ⟨j 0, j 1, eq_ix2 j⟩
  have hR : t.val * 5000 + r.val < 100000 := by have := r.isLt; omega
  have hemb : ((cfg0.win 3).blk t).view.emb (ix2 r q) = ix2 (⟨t.val * 5000 + r.val, hR⟩ : Fin 100000) q :=
    funext fun a => Fin.ext (by
      match a with
      | ⟨0, _⟩ => show win0_3.index t (0 : Fin 2) * 5000 + 1 * r.val = t.val * 5000 + r.val; omega
      | ⟨1, _⟩ => show win0_3.index t (1 : Fin 2) * 128 + 1 * q.val = q.val; omega)
  show k0_pay1 (iblk0 V c 0 t) (iblk0 V c 1 t) (iblk0 V c 2 t) (ix2 r q)
    = Cert.Stage.scaleDot d hb (V c main_arg0) (V c main_v11) (V c main_arg3) (((cfg0.win 3).blk t).view.emb (ix2 r q))
  rw [hemb, Cert.Stage.scaleDot_apply hd]
  unfold k0_pay1
  refine (Cert.Stage.scaleDotBlock_apply plain (iblk0 V c 0 t) (iblk0 V c 1 t) (iblk0 V c 2 t) _ _ _ r q).trans ?_
  refine Finset.sum_congr rfl fun k _ => ?_
  rw [read_rows V c t r k hR, read_col V c t r hR, read_weight V c t k q]

theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Row i₀ of the output lies in the block written at point i₀ / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hlt : (i 0).val / 5000 < cfg0.N := by omega
  obtain ⟨-, -, -, -, -, -, e6, e7⟩ := idx_facts ⟨(i 0).val / 5000, hlt⟩
  have e6' : win0_3.index ⟨(i 0).val / 5000, hlt⟩ (0 : Fin 2) = (i 0).val / 5000 := e6
  refine ⟨⟨(i 0).val / 5000, hlt⟩, flush0_3 _, ?_⟩
  rw [mem_blk]
  intro a
  match a with
  | ⟨0, _⟩ => show win0_3.index ⟨(i 0).val / 5000, hlt⟩ (0 : Fin 2) * 5000 ≤ (i 0).val ∧ (i 0).val < win0_3.index ⟨(i 0).val / 5000, hlt⟩ (0 : Fin 2) * 5000 + 5000; omega
  | ⟨1, _⟩ => show win0_3.index ⟨(i 0).val / 5000, hlt⟩ (1 : Fin 2) * 128 ≤ (i 1).val ∧ (i 1).val < win0_3.index ⟨(i 0).val / 5000, hlt⟩ (1 : Fin 2) * 128 + 128; omega

/-- The output array after the region: the stage of the input arrays as the region finds them. -/
theorem arr (d : DotDims S100000x256 S256x128 S100000x128) (hd : Cert.RowOps.IsPlain d)
    (hb : S100000x1.BroadcastsInDim S100000x256 ![0, 1]) (c : Dev nD) :
    (dat0 V c).arrAt 3 cfg0.N = Cert.Stage.scaleDot d hb (V c main_arg0) (V c main_v11) (V c main_arg3) :=
  (dat0 V c).arrAt_eq_of_cover 3 _ (fun t _ => flushed_eq V d hd hb c t) cover

end Cert.KernelIdeal.Region0

end
-- ==== Proof.Region1.lean ====
/-
  Region 1 of the kernel program as one function of whole arrays.

  The region walks twenty blocks of 5000 rows.  At block t it reads rows 5000·t … 5000·t + 4999 of its row-wise
  inputs and the whole of its small inputs, and writes the same rows of its output: each row scaled by its entry of the column, plus the bias row, plus the single entry, clipped at zero.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at point t: rows move with t, the bias row and the single entry stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem read_rows (c : Dev nD) (t : Fin cfg1.N) (r : Fin 5000) (q : Fin 128) (hR : t.val * 5000 + r.val < 100000) :
    iblk1 V c 0 t (ix2 r q) = V c main_v27 (ix2 (⟨t.val * 5000 + r.val, hR⟩ : Fin 100000) q) := by
  obtain ⟨e0, e1, -⟩ := idx_facts t
  show V c main_v27 (((cfg1.win 0).blk t).view.emb (ix2 r q)) = _
  refine congrArg (V c main_v27) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * q.val = q.val; omega

theorem read_col (c : Dev nD) (t : Fin cfg1.N) (r : Fin 5000) (hR : t.val * 5000 + r.val < 100000) :
    iblk1 V c 1 t (ix2 r (0 : Fin 1)) = V c main_v16 (ix2 (⟨t.val * 5000 + r.val, hR⟩ : Fin 100000) (0 : Fin 1)) := by
  obtain ⟨-, -, e2, e3, -⟩ := idx_facts t
  show V c main_v16 (((cfg1.win 1).blk t).view.emb (ix2 r (0 : Fin 1))) = _
  refine congrArg (V c main_v16) (funext fun a => Fin.ext ?_)
  match a with
  | ⟨0, _⟩ => show win1_1.index t (0 : Fin 2) * 5000 + 1 * r.val = t.val * 5000 + r.val; omega
  | ⟨1, _⟩ => show win1_1.index t (1 : Fin 2) * 1 + 1 * 0 = 0; omega

theorem read_bias (c : Dev nD) (t : Fin cfg1.N) (q : Fin 128) :
    iblk1 V c 2 t (ix2 (0 : Fin 1) q) = V c main_v28 (ix2 (0 : Fin 1) q) := by
  obtain ⟨-, -, -, -, e4, e5, -⟩ := idx_facts t
  show V c main_v28 (((cfg1.win 2).blk t).view.emb (ix2 (0 : Fin 1) q)) = _
  refine congrArg (V c main_v28) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

theorem read_one (c : Dev nD) (t : Fin cfg1.N) :
    iblk1 V c 3 t (ix2 (0 : Fin 1) (0 : Fin 1)) = V c main_v29 (ix2 (0 : Fin 1) (0 : Fin 1)) := by
  obtain ⟨-, -, -, -, -, -, e6, e7, -⟩ := idx_facts t
  show V c main_v29 (((cfg1.win 3).blk t).view.emb (ix2 (0 : Fin 1) (0 : Fin 1))) = _
  refine congrArg (V c main_v29) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-- The clipped affine part of the block at point t, at (r, q): the whole-array stage at (5000·t + r, q). -/
theorem clip_eq (hc : S100000x1.BroadcastsInDim S100000x128 ![0, 1]) (hr : S1x128.BroadcastsInDim S100000x128 ![0, 1])
    (ho : S1x1.BroadcastsInDim S100000x128 ![0, 1]) (h0 : S_.BroadcastsInDim S100000x128 ![])
    (c : Dev nD) (t : Fin cfg1.N) (r : Fin 5000) (q : Fin 128) (hR : t.val * 5000 + r.val < 100000) :
    (maximumf (addf (addf (mulf (shapeCast S5000x128 (iblk1 V c 0 t) shapeCasts_S5000x128_S5000x128) (broadcastTo S5000x128 (shapeCast S5000x1 (iblk1 V c 1 t) shapeCasts_S5000x1_S5000x1) broadcasts_S5000x1_S5000x128)) (broadcastTo S5000x128 (shapeCast S1x128 (iblk1 V c 2 t) shapeCasts_S1x128_S1x128) broadcasts_S1x128_S5000x128)) (broadcastTo S5000x128 (shapeCast S1x1 (iblk1 V c 3 t) shapeCasts_S1x1_S1x1) broadcasts_S1x1_S5000x128)) (broadcast S5000x128 (Scalar.ofBits (F := Ideal) .f32 0x00000000#32))) (ix2 r q)
      = Cert.Stage.affineClip hc hr ho h0 (V c main_v27) (V c main_v16) (V c main_v28) (V c main_v29) (ix2 (⟨t.val * 5000 + r.val, hR⟩ : Fin 100000) q) := by
  rw [Cert.Stage.affineClip_apply]
  refine (Cert.Stage.affineClipBlock_apply (iblk1 V c 0 t) (iblk1 V c 1 t) (iblk1 V c 2 t) (iblk1 V c 3 t) _ _ _ _ _ _ _ r q).trans ?_
  rw [read_rows V c t r q hR, read_col V c t r hR, read_bias V c t q, read_one V c t]

/-- What point t writes back is block t of the stage of the arrays as the region finds them. -/
theorem flushed_eq (hc : S100000x1.BroadcastsInDim S100000x128 ![0, 1]) (hr : S1x128.BroadcastsInDim S100000x128 ![0, 1])
    (ho : S1x1.BroadcastsInDim S100000x128 ![0, 1]) (h0 : S_.BroadcastsInDim S100000x128 ![]) (c : Dev nD) (t : Fin cfg1.N) :
    (dat1 V c).flushed 4 t = ((cfg1.win 4).blk t).view.read (Elt Ideal)
      (Cert.Stage.affineClip hc hr ho h0 (V c main_v27) (V c main_v16) (V c main_v28) (V c main_v29)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz, View.ld_unit_zero (S := S1x1) hz]
  have ht : t.val < 20 := by have := t.isLt; have hN : cfg1.N = 20 := N_1; omega
  obtain ⟨-, -, -, -, -, -, -, -, e8, e9⟩ := idx_facts t
  funext j
  obtain ⟨r, q, rfl⟩ : ∃ (r : Fin 5000) (q : Fin 128), j = ix2 r q := ⟨j 0, j 1, eq_ix2 j⟩
  have hR : t.val * 5000 + r.val < 100000 := by have := r.isLt; omega
  have hemb : ((cfg1.win 4).blk t).view.emb (ix2 r q) = ix2 (⟨t.val * 5000 + r.val, hR⟩ : Fin 100000) q :=
    funext fun a => Fin.ext (by
      match a with
      | ⟨0, _⟩ => show win1_4.index t (0 : Fin 2) * 5000 + 1 * r.val = t.val * 5000 + r.val; omega
      | ⟨1, _⟩ => show win1_4.index t (1 : Fin 2) * 128 + 1 * q.val = q.val; omega)
  show k1_pay1 (iblk1 V c 0 t) (iblk1 V c 1 t) (iblk1 V c 2 t) (iblk1 V c 3 t) (ix2 r q)
    = (Cert.Stage.affineClip hc hr ho h0 (V c main_v27) (V c main_v16) (V c main_v28) (V c main_v29)) (((cfg1.win 4).blk t).view.emb (ix2 r q))
  rw [hemb]
  unfold k1_pay1
  exact clip_eq V hc hr ho h0 c t r q hR

theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- Row i₀ of the output lies in the block written at point i₀ / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have hlt : (i 0).val / 5000 < cfg1.N := by omega
  obtain ⟨-, -, -, -, -, -, -, -, e8, e9⟩ := idx_facts ⟨(i 0).val / 5000, hlt⟩
  have e8' : win1_4.index ⟨(i 0).val / 5000, hlt⟩ (0 : Fin 2) = (i 0).val / 5000 := e8
  refine ⟨⟨(i 0).val / 5000, hlt⟩, flush1_4 _, ?_⟩
  rw [mem_blk]
  intro a
  match a with
  | ⟨0, _⟩ => show win1_4.index ⟨(i 0).val / 5000, hlt⟩ (0 : Fin 2) * 5000 ≤ (i 0).val ∧ (i 0).val < win1_4.index ⟨(i 0).val / 5000, hlt⟩ (0 : Fin 2) * 5000 + 5000; omega
  | ⟨1, _⟩ => show win1_4.index ⟨(i 0).val / 5000, hlt⟩ (1 : Fin 2) * 128 ≤ (i 1).val ∧ (i 1).val < win1_4.index ⟨(i 0).val / 5000, hlt⟩ (1 : Fin 2) * 128 + 128; omega

/-- The output array after the region: the stage of the input arrays as the region finds them. -/
theorem arr (hc : S100000x1.BroadcastsInDim S100000x128 ![0, 1]) (hr : S1x128.BroadcastsInDim S100000x128 ![0, 1])
    (ho : S1x1.BroadcastsInDim S100000x128 ![0, 1]) (h0 : S_.BroadcastsInDim S100000x128 ![]) (c : Dev nD) :
    (dat1 V c).arrAt 4 cfg1.N = Cert.Stage.affineClip hc hr ho h0 (V c main_v27) (V c main_v16) (V c main_v28) (V c main_v29) :=
  (dat1 V c).arrAt_eq_of_cover 4 _ (fun t _ => flushed_eq V hc hr ho h0 c t) cover

end Cert.KernelIdeal.Region1

end
-- ==== Proof.Region2.lean ====
/-
  Region 2 of the kernel program as one function of whole arrays.

  The region walks twenty blocks of 5000 rows.  At block t it reads rows 5000·t … 5000·t + 4999 of its row-wise
  inputs and the whole of its small inputs, and writes the same rows of its output: each row scaled by its entry of the column, times the weight.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem plain : Cert.RowOps.IsPlain dot_S5000x128_S128x64_S5000x64_1_0_0_1_n_n := ⟨rfl, rfl, rfl, rfl, rfl, rfl⟩

/-- The block indices of the four windows at point t: rows move with t, the weight stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem read_rows (c : Dev nD) (t : Fin cfg2.N) (r : Fin 5000) (k : Fin 128) (hR : t.val * 5000 + r.val < 100000) :
    iblk2 V c 0 t (ix2 r k) = V c main_v30 (ix2 (⟨t.val * 5000 + r.val, hR⟩ : Fin 100000) k) := by
  obtain ⟨e0, e1, -⟩ := idx_facts t
  show V c main_v30 (((cfg2.win 0).blk t).view.emb (ix2 r k)) = _
  refine congrArg (V c main_v30) (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * k.val = k.val; omega

theorem read_col (c : Dev nD) (t : Fin cfg2.N) (r : Fin 5000) (hR : t.val * 5000 + r.val < 100000) :
    iblk2 V c 1 t (ix2 r (0 : Fin 1)) = V c main_v11 (ix2 (⟨t.val * 5000 + r.val, hR⟩ : Fin 100000) (0 : Fin 1)) := by
  obtain ⟨-, -, e2, e3, -⟩ := idx_facts t
  show V c main_v11 (((cfg2.win 1).blk t).view.emb (ix2 r (0 : Fin 1))) = _
  refine congrArg (V c main_v11) (funext fun a => Fin.ext ?_)
  match a with
  | ⟨0, _⟩ => show win2_1.index t (0 : Fin 2) * 5000 + 1 * r.val = t.val * 5000 + r.val; omega
  | ⟨1, _⟩ => show win2_1.index t (1 : Fin 2) * 1 + 1 * 0 = 0; omega

theorem read_weight (c : Dev nD) (t : Fin cfg2.N) (k : Fin 128) (q : Fin 64) :
    iblk2 V c 2 t (ix2 k q) = V c main_arg6 (ix2 k q) := by
  obtain ⟨-, -, -, -, e4, e5, -⟩ := idx_facts t
  show V c main_arg6 (((cfg2.win 2).blk t).view.emb (ix2 k q)) = _
  refine congrArg (V c main_arg6) (funext fun a => Fin.ext ?_)
  match a with
  | ⟨0, _⟩ => show win2_2.index t (0 : Fin 2) * 128 + 1 * k.val = k.val; omega
  | ⟨1, _⟩ => show win2_2.index t (1 : Fin 2) * 64 + 1 * q.val = q.val; omega

/-- What point t writes back is block t of the stage of the arrays as the region finds them. -/
theorem flushed_eq (d : DotDims S100000x128 S128x64 S100000x64) (hd : Cert.RowOps.IsPlain d)
    (hb : S100000x1.BroadcastsInDim S100000x128 ![0, 1]) (c : Dev nD) (t : Fin cfg2.N) :
    (dat2 V c).flushed 3 t = ((cfg2.win 3).blk t).view.read (Elt Ideal)
      (Cert.Stage.scaleDot d hb (V c main_v30) (V c main_v11) (V c main_arg6)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x64) hz]
  have ht : t.val < 20 := by have := t.isLt; have hN : cfg2.N = 20 := N_2; omega
  obtain ⟨-, -, -, -, -, -, e6, e7⟩ := idx_facts t
  funext j
  obtain ⟨r, q, rfl⟩ : ∃ (r : Fin 5000) (q : Fin 64), j = ix2 r q := ⟨j 0, j 1, eq_ix2 j⟩
  have hR : t.val * 5000 + r.val < 100000 := by have := r.isLt; omega
  have hemb : ((cfg2.win 3).blk t).view.emb (ix2 r q) = ix2 (⟨t.val * 5000 + r.val, hR⟩ : Fin 100000) q :=
    funext fun a => Fin.ext (by
      match a with
      | ⟨0, _⟩ => show win2_3.index t (0 : Fin 2) * 5000 + 1 * r.val = t.val * 5000 + r.val; omega
      | ⟨1, _⟩ => show win2_3.index t (1 : Fin 2) * 64 + 1 * q.val = q.val; omega)
  show k2_pay1 (iblk2 V c 0 t) (iblk2 V c 1 t) (iblk2 V c 2 t) (ix2 r q)
    = Cert.Stage.scaleDot d hb (V c main_v30) (V c main_v11) (V c main_arg6) (((cfg2.win 3).blk t).view.emb (ix2 r q))
  rw [hemb, Cert.Stage.scaleDot_apply hd]
  unfold k2_pay1
  refine (Cert.Stage.scaleDotBlockCast_apply plain (iblk2 V c 0 t) (iblk2 V c 1 t) (iblk2 V c 2 t) _ _ _ _ r q).trans ?_
  refine Finset.sum_congr rfl fun k _ => ?_
  rw [read_rows V c t r k hR, read_col V c t r hR, read_weight V c t k q]

theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v31).slice (win2_3.rect t)).set ↔ _
  rw [View.set_slice_whole, Rect.mem_set_unit]
  exact Iff.rfl

/-- Row i₀ of the output lies in the block written at point i₀ / 5000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have hlt : (i 0).val / 5000 < cfg2.N := by omega
  obtain ⟨-, -, -, -, -, -, e6, e7⟩ := idx_facts ⟨(i 0).val / 5000, hlt⟩
  have e6' : win2_3.index ⟨(i 0).val / 5000, hlt⟩ (0 : Fin 2) = (i 0).val / 5000 := e6
  refine ⟨⟨(i 0).val / 5000, hlt⟩, flush2_3 _, ?_⟩
  rw [mem_blk]
  intro a
  match a with
  | ⟨0, _⟩ => show win2_3.index ⟨(i 0).val / 5000, hlt⟩ (0 : Fin 2) * 5000 ≤ (i 0).val ∧ (i 0).val < win2_3.index ⟨(i 0).val / 5000, hlt⟩ (0 : Fin 2) * 5000 + 5000; omega
  | ⟨1, _⟩ => show win2_3.index ⟨(i 0).val / 5000, hlt⟩ (1 : Fin 2) * 64 ≤ (i 1).val ∧ (i 1).val < win2_3.index ⟨(i 0).val / 5000, hlt⟩ (1 : Fin 2) * 64 + 64; omega

/-- The output array after the region: the stage of the input arrays as the region finds them. -/
theorem arr (d : DotDims S100000x128 S128x64 S100000x64) (hd : Cert.RowOps.IsPlain d)
    (hb : S100000x1.BroadcastsInDim S100000x128 ![0, 1]) (c : Dev nD) :
    (dat2 V c).arrAt 3 cfg2.N = Cert.Stage.scaleDot d hb (V c main_v30) (V c main_v11) (V c main_arg6) :=
  (dat2 V c).arrAt_eq_of_cover 3 _ (fun t _ => flushed_eq V d hd hb c t) cover

end Cert.KernelIdeal.Region2

end
-- ==== Proof.Region3.lean ====
/-
  Region 3 of the kernel program as one function of whole arrays.

  The region walks twenty blocks of 5000 rows.  At block t it reads rows 5000·t … 5000·t + 4999 of its row-wise
  inputs and the whole of its small inputs, and writes the same rows of its output: each row scaled by its entry of the column, plus the bias row, plus the single entry, clipped at zero.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at point t: rows move with t, the bias row and the single entry stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem read_rows (c : Dev nD) (t : Fin cfg3.N) (r : Fin 5000) (q : Fin 64) (hR : t.val * 5000 + r.val < 100000) :
    iblk3 V c 0 t (ix2 r q) = V c main_v41 (ix2 (⟨t.val * 5000 + r.val, hR⟩ : Fin 100000) q) := by
  obtain ⟨e0, e1, -⟩ := idx_facts t
  show V c main_v41 (((cfg3.win 0).blk t).view.emb (ix2 r q)) = _
  refine congrArg (V c main_v41) (funext fun a => Fin.ext ?_)
  match a with
  | ⟨0, _⟩ => show win3_0.index t (0 : Fin 2) * 5000 + 1 * r.val = t.val * 5000 + r.val; omega
  | ⟨1, _⟩ => show win3_0.index t (1 : Fin 2) * 64 + 1 * q.val = q.val; omega

theorem read_col (c : Dev nD) (t : Fin cfg3.N) (r : Fin 5000) (hR : t.val * 5000 + r.val < 100000) :
    iblk3 V c 1 t (ix2 r (0 : Fin 1)) = V c main_v16 (ix2 (⟨t.val * 5000 + r.val, hR⟩ : Fin 100000) (0 : Fin 1)) := by
  obtain ⟨-, -, e2, e3, -⟩ := idx_facts t
  show V c main_v16 (((cfg3.win 1).blk t).view.emb (ix2 r (0 : Fin 1))) = _
  refine congrArg (V c main_v16) (funext fun a => Fin.ext ?_)
  match a with
  | ⟨0, _⟩ => show win3_1.index t (0 : Fin 2) * 5000 + 1 * r.val = t.val * 5000 + r.val; omega
  | ⟨1, _⟩ => show win3_1.index t (1 : Fin 2) * 1 + 1 * 0 = 0; omega

theorem read_bias (c : Dev nD) (t : Fin cfg3.N) (q : Fin 64) :
    iblk3 V c 2 t (ix2 (0 : Fin 1) q) = V c main_v42 (ix2 (0 : Fin 1) q) := by
  obtain ⟨-, -, -, -, e4, e5, -⟩ := idx_facts t
  show V c main_v42 (((cfg3.win 2).blk t).view.emb (ix2 (0 : Fin 1) q)) = _
  refine congrArg (V c main_v42) (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

theorem read_one (c : Dev nD) (t : Fin cfg3.N) :
    iblk3 V c 3 t (ix2 (0 : Fin 1) (0 : Fin 1)) = V c main_v43 (ix2 (0 : Fin 1) (0 : Fin 1)) := by
  obtain ⟨-, -, -, -, -, -, e6, e7, -⟩ := idx_facts t
  show V c main_v43 (((cfg3.win 3).blk t).view.emb (ix2 (0 : Fin 1) (0 : Fin 1))) = _
  refine congrArg (V c main_v43) (funext fun a => Fin.ext ?_)
  match a with
  | ⟨0, _⟩ => show win3_3.index t (0 : Fin 2) * 1 + 1 * 0 = 0; omega
  | ⟨1, _⟩ => show win3_3.index t (1 : Fin 2) * 1 + 1 * 0 = 0; omega

/-- The clipped affine part of the block at point t, at (r, q): the whole-array stage at (5000·t + r, q). -/
theorem clip_eq (hc : S100000x1.BroadcastsInDim S100000x64 ![0, 1]) (hr : S1x64.BroadcastsInDim S100000x64 ![0, 1])
    (ho : S1x1.BroadcastsInDim S100000x64 ![0, 1]) (h0 : S_.BroadcastsInDim S100000x64 ![])
    (c : Dev nD) (t : Fin cfg3.N) (r : Fin 5000) (q : Fin 64) (hR : t.val * 5000 + r.val < 100000) :
    (maximumf (addf (addf (mulf (shapeCast S5000x64 (iblk3 V c 0 t) shapeCasts_S5000x64_S5000x64) (broadcastTo S5000x64 (shapeCast S5000x1 (iblk3 V c 1 t) shapeCasts_S5000x1_S5000x1) broadcasts_S5000x1_S5000x64)) (broadcastTo S5000x64 (shapeCast S1x64 (iblk3 V c 2 t) shapeCasts_S1x64_S1x64) broadcasts_S1x64_S5000x64)) (broadcastTo S5000x64 (shapeCast S1x1 (iblk3 V c 3 t) shapeCasts_S1x1_S1x1) broadcasts_S1x1_S5000x64)) (broadcast S5000x64 (Scalar.ofBits (F := Ideal) .f32 0x00000000#32))) (ix2 r q)
      = Cert.Stage.affineClip hc hr ho h0 (V c main_v41) (V c main_v16) (V c main_v42) (V c main_v43) (ix2 (⟨t.val * 5000 + r.val, hR⟩ : Fin 100000) q) := by
  rw [Cert.Stage.affineClip_apply]
  refine (Cert.Stage.affineClipBlock_apply (iblk3 V c 0 t) (iblk3 V c 1 t) (iblk3 V c 2 t) (iblk3 V c 3 t) _ _ _ _ _ _ _ r q).trans ?_
  rw [read_rows V c t r q hR, read_col V c t r hR, read_bias V c t q, read_one V c t]

/-- What point t writes back is block t of the stage of the arrays as the region finds them. -/
theorem flushed_eq (hc : S100000x1.BroadcastsInDim S100000x64 ![0, 1]) (hr : S1x64.BroadcastsInDim S100000x64 ![0, 1])
    (ho : S1x1.BroadcastsInDim S100000x64 ![0, 1]) (h0 : S_.BroadcastsInDim S100000x64 ![]) (c : Dev nD) (t : Fin cfg3.N) :
    (dat3 V c).flushed 4 t = ((cfg3.win 4).blk t).view.read (Elt Ideal)
      (Cert.Stage.affineClip hc hr ho h0 (V c main_v41) (V c main_v16) (V c main_v42) (V c main_v43)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz, View.ld_unit_zero (S := S1x1) hz]
  have ht : t.val < 20 := by have := t.isLt; have hN : cfg3.N = 20 := N_3; omega
  obtain ⟨-, -, -, -, -, -, -, -, e8, e9⟩ := idx_facts t
  funext j
  obtain ⟨r, q, rfl⟩ : ∃ (r : Fin 5000) (q : Fin 64), j = ix2 r q := ⟨j 0, j 1, eq_ix2 j⟩
  have hR : t.val * 5000 + r.val < 100000 := by have := r.isLt; omega
  have hemb : ((cfg3.win 4).blk t).view.emb (ix2 r q) = ix2 (⟨t.val * 5000 + r.val, hR⟩ : Fin 100000) q :=
    funext fun a => Fin.ext (by
      match a with
      | ⟨0, _⟩ => show win3_4.index t (0 : Fin 2) * 5000 + 1 * r.val = t.val * 5000 + r.val; omega
      | ⟨1, _⟩ => show win3_4.index t (1 : Fin 2) * 64 + 1 * q.val = q.val; omega)
  show k3_pay1 (iblk3 V c 0 t) (iblk3 V c 1 t) (iblk3 V c 2 t) (iblk3 V c 3 t) (ix2 r q)
    = (Cert.Stage.affineClip hc hr ho h0 (V c main_v41) (V c main_v16) (V c main_v42) (V c main_v43)) (((cfg3.win 4).blk t).view.emb (ix2 r q))
  rw [hemb]
  unfold k3_pay1
  exact clip_eq V hc hr ho h0 c t r q hR

theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v44).slice (win3_4.rect t)).set ↔ _
  rw [View.set_slice_whole, Rect.mem_set_unit]
  exact Iff.rfl

/-- Row i₀ of the output lies in the block written at point i₀ / 5000. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  have hlt : (i 0).val / 5000 < cfg3.N := by omega
  obtain ⟨-, -, -, -, -, -, -, -, e8, e9⟩ := idx_facts ⟨(i 0).val / 5000, hlt⟩
  have e8' : win3_4.index ⟨(i 0).val / 5000, hlt⟩ (0 : Fin 2) = (i 0).val / 5000 := e8
  refine ⟨⟨(i 0).val / 5000, hlt⟩, flush3_4 _, ?_⟩
  rw [mem_blk]
  intro a
  match a with
  | ⟨0, _⟩ => show win3_4.index ⟨(i 0).val / 5000, hlt⟩ (0 : Fin 2) * 5000 ≤ (i 0).val ∧ (i 0).val < win3_4.index ⟨(i 0).val / 5000, hlt⟩ (0 : Fin 2) * 5000 + 5000; omega
  | ⟨1, _⟩ => show win3_4.index ⟨(i 0).val / 5000, hlt⟩ (1 : Fin 2) * 64 ≤ (i 1).val ∧ (i 1).val < win3_4.index ⟨(i 0).val / 5000, hlt⟩ (1 : Fin 2) * 64 + 64; omega

/-- The output array after the region: the stage of the input arrays as the region finds them. -/
theorem arr (hc : S100000x1.BroadcastsInDim S100000x64 ![0, 1]) (hr : S1x64.BroadcastsInDim S100000x64 ![0, 1])
    (ho : S1x1.BroadcastsInDim S100000x64 ![0, 1]) (h0 : S_.BroadcastsInDim S100000x64 ![]) (c : Dev nD) :
    (dat3 V c).arrAt 4 cfg3.N = Cert.Stage.affineClip hc hr ho h0 (V c main_v41) (V c main_v16) (V c main_v42) (V c main_v43) :=
  (dat3 V c).arrAt_eq_of_cover 4 _ (fun t _ => flushed_eq V hc hr ho h0 c t) cover

end Cert.KernelIdeal.Region3

end
-- ==== Proof.Region4.lean ====
/-
  Region 4 of the kernel program as one function of whole arrays.

  The region walks twenty blocks of 5000 rows.  At block t it reads rows 5000·t … 5000·t + 4999 of its row-wise
  inputs and the whole of its small inputs, and writes the same rows of its output: each row scaled by its entry of the column, times the weight.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem plain : Cert.RowOps.IsPlain dot_S5000x64_S64x32_S5000x32_1_0_0_1_n_n := ⟨rfl, rfl, rfl, rfl, rfl, rfl⟩

/-- The block indices of the four windows at point t: rows move with t, the weight stays. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem read_rows (c : Dev nD) (t : Fin cfg4.N) (r : Fin 5000) (k : Fin 64) (hR : t.val * 5000 + r.val < 100000) :
    iblk4 V c 0 t (ix2 r k) = V c main_v44 (ix2 (⟨t.val * 5000 + r.val, hR⟩ : Fin 100000) k) := by
  obtain ⟨e0, e1, -⟩ := idx_facts t
  show V c main_v44 (((cfg4.win 0).blk t).view.emb (ix2 r k)) = _
  refine congrArg (V c main_v44) (funext fun a => Fin.ext ?_)
  match a with
  | ⟨0, _⟩ => show win4_0.index t (0 : Fin 2) * 5000 + 1 * r.val = t.val * 5000 + r.val; omega
  | ⟨1, _⟩ => show win4_0.index t (1 : Fin 2) * 64 + 1 * k.val = k.val; omega

theorem read_col (c : Dev nD) (t : Fin cfg4.N) (r : Fin 5000) (hR : t.val * 5000 + r.val < 100000) :
    iblk4 V c 1 t (ix2 r (0 : Fin 1)) = V c main_v11 (ix2 (⟨t.val * 5000 + r.val, hR⟩ : Fin 100000) (0 : Fin 1)) := by
  obtain ⟨-, -, e2, e3, -⟩ := idx_facts t
  show V c main_v11 (((cfg4.win 1).blk t).view.emb (ix2 r (0 : Fin 1))) = _
  refine congrArg (V c main_v11) (funext fun a => Fin.ext ?_)
  match a with
  | ⟨0, _⟩ => show win4_1.index t (0 : Fin 2) * 5000 + 1 * r.val = t.val * 5000 + r.val; omega
  | ⟨1, _⟩ => show win4_1.index t (1 : Fin 2) * 1 + 1 * 0 = 0; omega

theorem read_weight (c : Dev nD) (t : Fin cfg4.N) (k : Fin 64) (q : Fin 32) :
    iblk4 V c 2 t (ix2 k q) = V c main_arg9 (ix2 k q) := by
  obtain ⟨-, -, -, -, e4, e5, -⟩ := idx_facts t
  show V c main_arg9 (((cfg4.win 2).blk t).view.emb (ix2 k q)) = _
  refine congrArg (V c main_arg9) (funext fun a => Fin.ext ?_)
  match a with
  | ⟨0, _⟩ => show win4_2.index t (0 : Fin 2) * 64 + 1 * k.val = k.val; omega
  | ⟨1, _⟩ => show win4_2.index t (1 : Fin 2) * 32 + 1 * q.val = q.val; omega

/-- What point t writes back is block t of the stage of the arrays as the region finds them. -/
theorem flushed_eq (d : DotDims S100000x64 S64x32 S100000x32) (hd : Cert.RowOps.IsPlain d)
    (hb : S100000x1.BroadcastsInDim S100000x64 ![0, 1]) (c : Dev nD) (t : Fin cfg4.N) :
    (dat4 V c).flushed 3 t = ((cfg4.win 3).blk t).view.read (Elt Ideal)
      (Cert.Stage.scaleDot d hb (V c main_v44) (V c main_v11) (V c main_arg9)) := by
  show (cfg4.win 3).cut (grid4.coords t) ((dat4 V c).after 3 t) = _
  rw [after4_3]
  unfold out4_3
  rw [View.canon_unit_zero hz]
  simp only [View.ld_unit_zero (S := S5000x64) hz, View.ld_unit_zero (S := S5000x1) hz, View.ld_unit_zero (S := S64x32) hz]
  have ht : t.val < 20 := by have := t.isLt; have hN : cfg4.N = 20 := N_4; omega
  obtain ⟨-, -, -, -, -, -, e6, e7⟩ := idx_facts t
  funext j
  obtain ⟨r, q, rfl⟩ : ∃ (r : Fin 5000) (q : Fin 32), j = ix2 r q := ⟨j 0, j 1, eq_ix2 j⟩
  have hR : t.val * 5000 + r.val < 100000 := by have := r.isLt; omega
  have hemb : ((cfg4.win 3).blk t).view.emb (ix2 r q) = ix2 (⟨t.val * 5000 + r.val, hR⟩ : Fin 100000) q :=
    funext fun a => Fin.ext (by
      match a with
      | ⟨0, _⟩ => show win4_3.index t (0 : Fin 2) * 5000 + 1 * r.val = t.val * 5000 + r.val; omega
      | ⟨1, _⟩ => show win4_3.index t (1 : Fin 2) * 32 + 1 * q.val = q.val; omega)
  show k4_pay1 (iblk4 V c 0 t) (iblk4 V c 1 t) (iblk4 V c 2 t) (ix2 r q)
    = Cert.Stage.scaleDot d hb (V c main_v44) (V c main_v11) (V c main_arg9) (((cfg4.win 3).blk t).view.emb (ix2 r q))
  rw [hemb, Cert.Stage.scaleDot_apply hd]
  unfold k4_pay1
  refine (Cert.Stage.scaleDotBlockCast_apply plain (iblk4 V c 0 t) (iblk4 V c 1 t) (iblk4 V c 2 t) _ _ _ _ r q).trans ?_
  refine Finset.sum_congr rfl fun k _ => ?_
  rw [read_rows V c t r k hR, read_col V c t r hR, read_weight V c t k q]

theorem mem_blk (t : Fin cfg4.N) (i : S100000x32.Idx) :
    i ∈ ((cfg4.win 3).blk t).view.set ↔ ∀ a : Fin 2, win4_3.index t a * S5000x32.size a ≤ (i a).val ∧ (i a).val < win4_3.index t a * S5000x32.size a + S5000x32.size a := by
  show i ∈ ((View.whole main_v45).slice (win4_3.rect t)).set ↔ _
  rw [View.set_slice_whole, Rect.mem_set_unit]
  exact Iff.rfl

/-- Row i₀ of the output lies in the block written at point i₀ / 5000. -/
theorem cover (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 20 := N_4
  have hlt : (i 0).val / 5000 < cfg4.N := by omega
  obtain ⟨-, -, -, -, -, -, e6, e7⟩ := idx_facts ⟨(i 0).val / 5000, hlt⟩
  have e6' : win4_3.index ⟨(i 0).val / 5000, hlt⟩ (0 : Fin 2) = (i 0).val / 5000 := e6
  refine ⟨⟨(i 0).val / 5000, hlt⟩, flush4_3 _, ?_⟩
  rw [mem_blk]
  intro a
  match a with
  | ⟨0, _⟩ => show win4_3.index ⟨(i 0).val / 5000, hlt⟩ (0 : Fin 2) * 5000 ≤ (i 0).val ∧ (i 0).val < win4_3.index ⟨(i 0).val / 5000, hlt⟩ (0 : Fin 2) * 5000 + 5000; omega
  | ⟨1, _⟩ => show win4_3.index ⟨(i 0).val / 5000, hlt⟩ (1 : Fin 2) * 32 ≤ (i 1).val ∧ (i 1).val < win4_3.index ⟨(i 0).val / 5000, hlt⟩ (1 : Fin 2) * 32 + 32; omega

/-- The output array after the region: the stage of the input arrays as the region finds them. -/
theorem arr (d : DotDims S100000x64 S64x32 S100000x32) (hd : Cert.RowOps.IsPlain d)
    (hb : S100000x1.BroadcastsInDim S100000x64 ![0, 1]) (c : Dev nD) :
    (dat4 V c).arrAt 3 cfg4.N = Cert.Stage.scaleDot d hb (V c main_v44) (V c main_v11) (V c main_arg9) :=
  (dat4 V c).arrAt_eq_of_cover 3 _ (fun t _ => flushed_eq V d hd hb c t) cover

end Cert.KernelIdeal.Region4

end
-- ==== Proof.Region5.lean ====
/-
  Region 5 of the kernel program as one function of whole arrays.

  The region walks twenty blocks of 5000 rows.  At block t it reads rows 5000·t … 5000·t + 4999 of its row-wise
  inputs and the whole of its small inputs, and writes the same rows of its output: each row scaled by its entry of the column, plus the bias row, plus the single entry, clipped at zero.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region5

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at point t: rows move with t, the bias row and the single entry stay. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem read_rows (c : Dev nD) (t : Fin cfg5.N) (r : Fin 5000) (q : Fin 32) (hR : t.val * 5000 + r.val < 100000) :
    iblk5 V c 0 t (ix2 r q) = V c main_v55 (ix2 (⟨t.val * 5000 + r.val, hR⟩ : Fin 100000) q) := by
  obtain ⟨e0, e1, -⟩ := idx_facts t
  show V c main_v55 (((cfg5.win 0).blk t).view.emb (ix2 r q)) = _
  refine congrArg (V c main_v55) (funext fun a => Fin.ext ?_)
  match a with
  | ⟨0, _⟩ => show win5_0.index t (0 : Fin 2) * 5000 + 1 * r.val = t.val * 5000 + r.val; omega
  | ⟨1, _⟩ => show win5_0.index t (1 : Fin 2) * 32 + 1 * q.val = q.val; omega

theorem read_col (c : Dev nD) (t : Fin cfg5.N) (r : Fin 5000) (hR : t.val * 5000 + r.val < 100000) :
    iblk5 V c 1 t (ix2 r (0 : Fin 1)) = V c main_v16 (ix2 (⟨t.val * 5000 + r.val, hR⟩ : Fin 100000) (0 : Fin 1)) := by
  obtain ⟨-, -, e2, e3, -⟩ := idx_facts t
  show V c main_v16 (((cfg5.win 1).blk t).view.emb (ix2 r (0 : Fin 1))) = _
  refine congrArg (V c main_v16) (funext fun a => Fin.ext ?_)
  match a with
  | ⟨0, _⟩ => show win5_1.index t (0 : Fin 2) * 5000 + 1 * r.val = t.val * 5000 + r.val; omega
  | ⟨1, _⟩ => show win5_1.index t (1 : Fin 2) * 1 + 1 * 0 = 0; omega

theorem read_bias (c : Dev nD) (t : Fin cfg5.N) (q : Fin 32) :
    iblk5 V c 2 t (ix2 (0 : Fin 1) q) = V c main_v56 (ix2 (0 : Fin 1) q) := by
  obtain ⟨-, -, -, -, e4, e5, -⟩ := idx_facts t
  show V c main_v56 (((cfg5.win 2).blk t).view.emb (ix2 (0 : Fin 1) q)) = _
  refine congrArg (V c main_v56) (funext fun a => Fin.ext ?_)
  match a with
  | ⟨0, _⟩ => show win5_2.index t (0 : Fin 2) * 1 + 1 * 0 = 0; omega
  | ⟨1, _⟩ => show win5_2.index t (1 : Fin 2) * 32 + 1 * q.val = q.val; omega

theorem read_one (c : Dev nD) (t : Fin cfg5.N) :
    iblk5 V c 3 t (ix2 (0 : Fin 1) (0 : Fin 1)) = V c main_v57 (ix2 (0 : Fin 1) (0 : Fin 1)) := by
  obtain ⟨-, -, -, -, -, -, e6, e7, -⟩ := idx_facts t
  show V c main_v57 (((cfg5.win 3).blk t).view.emb (ix2 (0 : Fin 1) (0 : Fin 1))) = _
  refine congrArg (V c main_v57) (funext fun a => Fin.ext ?_)
  match a with
  | ⟨0, _⟩ => show win5_3.index t (0 : Fin 2) * 1 + 1 * 0 = 0; omega
  | ⟨1, _⟩ => show win5_3.index t (1 : Fin 2) * 1 + 1 * 0 = 0; omega

/-- The clipped affine part of the block at point t, at (r, q): the whole-array stage at (5000·t + r, q). -/
theorem clip_eq (hc : S100000x1.BroadcastsInDim S100000x32 ![0, 1]) (hr : S1x32.BroadcastsInDim S100000x32 ![0, 1])
    (ho : S1x1.BroadcastsInDim S100000x32 ![0, 1]) (h0 : S_.BroadcastsInDim S100000x32 ![])
    (c : Dev nD) (t : Fin cfg5.N) (r : Fin 5000) (q : Fin 32) (hR : t.val * 5000 + r.val < 100000) :
    (maximumf (addf (addf (mulf (shapeCast S5000x32 (iblk5 V c 0 t) shapeCasts_S5000x32_S5000x32) (broadcastTo S5000x32 (shapeCast S5000x1 (iblk5 V c 1 t) shapeCasts_S5000x1_S5000x1) broadcasts_S5000x1_S5000x32)) (broadcastTo S5000x32 (shapeCast S1x32 (iblk5 V c 2 t) shapeCasts_S1x32_S1x32) broadcasts_S1x32_S5000x32)) (broadcastTo S5000x32 (shapeCast S1x1 (iblk5 V c 3 t) shapeCasts_S1x1_S1x1) broadcasts_S1x1_S5000x32)) (broadcast S5000x32 (Scalar.ofBits (F := Ideal) .f32 0x00000000#32))) (ix2 r q)
      = Cert.Stage.affineClip hc hr ho h0 (V c main_v55) (V c main_v16) (V c main_v56) (V c main_v57) (ix2 (⟨t.val * 5000 + r.val, hR⟩ : Fin 100000) q) := by
  rw [Cert.Stage.affineClip_apply]
  refine (Cert.Stage.affineClipBlock_apply (iblk5 V c 0 t) (iblk5 V c 1 t) (iblk5 V c 2 t) (iblk5 V c 3 t) _ _ _ _ _ _ _ r q).trans ?_
  rw [read_rows V c t r q hR, read_col V c t r hR, read_bias V c t q, read_one V c t]

/-- What point t writes back is block t of the stage of the arrays as the region finds them. -/
theorem flushed_eq (hc : S100000x1.BroadcastsInDim S100000x32 ![0, 1]) (hr : S1x32.BroadcastsInDim S100000x32 ![0, 1])
    (ho : S1x1.BroadcastsInDim S100000x32 ![0, 1]) (h0 : S_.BroadcastsInDim S100000x32 ![]) (c : Dev nD) (t : Fin cfg5.N) :
    (dat5 V c).flushed 4 t = ((cfg5.win 4).blk t).view.read (Elt Ideal)
      (Cert.Stage.affineClip hc hr ho h0 (V c main_v55) (V c main_v16) (V c main_v56) (V c main_v57)) := by
  show (cfg5.win 4).cut (grid5.coords t) ((dat5 V c).after 4 t) = _
  rw [after5_4]
  unfold out5_4
  rw [View.canon_unit_zero hz]
  simp only [View.ld_unit_zero (S := S5000x32) hz, View.ld_unit_zero (S := S5000x1) hz, View.ld_unit_zero (S := S1x32) hz, View.ld_unit_zero (S := S1x1) hz]
  have ht : t.val < 20 := by have := t.isLt; have hN : cfg5.N = 20 := N_5; omega
  obtain ⟨-, -, -, -, -, -, -, -, e8, e9⟩ := idx_facts t
  funext j
  obtain ⟨r, q, rfl⟩ : ∃ (r : Fin 5000) (q : Fin 32), j = ix2 r q := ⟨j 0, j 1, eq_ix2 j⟩
  have hR : t.val * 5000 + r.val < 100000 := by have := r.isLt; omega
  have hemb : ((cfg5.win 4).blk t).view.emb (ix2 r q) = ix2 (⟨t.val * 5000 + r.val, hR⟩ : Fin 100000) q :=
    funext fun a => Fin.ext (by
      match a with
      | ⟨0, _⟩ => show win5_4.index t (0 : Fin 2) * 5000 + 1 * r.val = t.val * 5000 + r.val; omega
      | ⟨1, _⟩ => show win5_4.index t (1 : Fin 2) * 32 + 1 * q.val = q.val; omega)
  show k5_pay1 (iblk5 V c 0 t) (iblk5 V c 1 t) (iblk5 V c 2 t) (iblk5 V c 3 t) (ix2 r q)
    = (Cert.Stage.affineClip hc hr ho h0 (V c main_v55) (V c main_v16) (V c main_v56) (V c main_v57)) (((cfg5.win 4).blk t).view.emb (ix2 r q))
  rw [hemb]
  unfold k5_pay1
  exact clip_eq V hc hr ho h0 c t r q hR

theorem mem_blk (t : Fin cfg5.N) (i : S100000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v58).slice (win5_4.rect t)).set ↔ _
  rw [View.set_slice_whole, Rect.mem_set_unit]
  exact Iff.rfl

/-- Row i₀ of the output lies in the block written at point i₀ / 5000. -/
theorem cover (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  have hN : cfg5.N = 20 := N_5
  have hlt : (i 0).val / 5000 < cfg5.N := by omega
  obtain ⟨-, -, -, -, -, -, -, -, e8, e9⟩ := idx_facts ⟨(i 0).val / 5000, hlt⟩
  have e8' : win5_4.index ⟨(i 0).val / 5000, hlt⟩ (0 : Fin 2) = (i 0).val / 5000 := e8
  refine ⟨⟨(i 0).val / 5000, hlt⟩, flush5_4 _, ?_⟩
  rw [mem_blk]
  intro a
  match a with
  | ⟨0, _⟩ => show win5_4.index ⟨(i 0).val / 5000, hlt⟩ (0 : Fin 2) * 5000 ≤ (i 0).val ∧ (i 0).val < win5_4.index ⟨(i 0).val / 5000, hlt⟩ (0 : Fin 2) * 5000 + 5000; omega
  | ⟨1, _⟩ => show win5_4.index ⟨(i 0).val / 5000, hlt⟩ (1 : Fin 2) * 32 ≤ (i 1).val ∧ (i 1).val < win5_4.index ⟨(i 0).val / 5000, hlt⟩ (1 : Fin 2) * 32 + 32; omega

/-- The output array after the region: the stage of the input arrays as the region finds them. -/
theorem arr (hc : S100000x1.BroadcastsInDim S100000x32 ![0, 1]) (hr : S1x32.BroadcastsInDim S100000x32 ![0, 1])
    (ho : S1x1.BroadcastsInDim S100000x32 ![0, 1]) (h0 : S_.BroadcastsInDim S100000x32 ![]) (c : Dev nD) :
    (dat5 V c).arrAt 4 cfg5.N = Cert.Stage.affineClip hc hr ho h0 (V c main_v55) (V c main_v16) (V c main_v56) (V c main_v57) :=
  (dat5 V c).arrAt_eq_of_cover 4 _ (fun t _ => flushed_eq V hc hr ho h0 c t) cover

end Cert.KernelIdeal.Region5

end
-- ==== Proof.Region6.lean ====
/-
  Region 6 of the kernel program as one function of whole arrays.

  The region walks twenty blocks of 5000 rows.  At block t it reads rows 5000·t … 5000·t + 4999 of its row-wise
  inputs and the whole of its small inputs, and writes the same rows of its output: each row scaled by its entry of the column, times the weight.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region6

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem plain : Cert.RowOps.IsPlain dot_S5000x32_S32x16_S5000x16_1_0_0_1_n_n := ⟨rfl, rfl, rfl, rfl, rfl, rfl⟩

/-- The block indices of the four windows at point t: rows move with t, the weight stays. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem read_rows (c : Dev nD) (t : Fin cfg6.N) (r : Fin 5000) (k : Fin 32) (hR : t.val * 5000 + r.val < 100000) :
    iblk6 V c 0 t (ix2 r k) = V c main_v58 (ix2 (⟨t.val * 5000 + r.val, hR⟩ : Fin 100000) k) := by
  obtain ⟨e0, e1, -⟩ := idx_facts t
  show V c main_v58 (((cfg6.win 0).blk t).view.emb (ix2 r k)) = _
  refine congrArg (V c main_v58) (funext fun a => Fin.ext ?_)
  match a with
  | ⟨0, _⟩ => show win6_0.index t (0 : Fin 2) * 5000 + 1 * r.val = t.val * 5000 + r.val; omega
  | ⟨1, _⟩ => show win6_0.index t (1 : Fin 2) * 32 + 1 * k.val = k.val; omega

theorem read_col (c : Dev nD) (t : Fin cfg6.N) (r : Fin 5000) (hR : t.val * 5000 + r.val < 100000) :
    iblk6 V c 1 t (ix2 r (0 : Fin 1)) = V c main_v11 (ix2 (⟨t.val * 5000 + r.val, hR⟩ : Fin 100000) (0 : Fin 1)) := by
  obtain ⟨-, -, e2, e3, -⟩ := idx_facts t
  show V c main_v11 (((cfg6.win 1).blk t).view.emb (ix2 r (0 : Fin 1))) = _
  refine congrArg (V c main_v11) (funext fun a => Fin.ext ?_)
  match a with
  | ⟨0, _⟩ => show win6_1.index t (0 : Fin 2) * 5000 + 1 * r.val = t.val * 5000 + r.val; omega
  | ⟨1, _⟩ => show win6_1.index t (1 : Fin 2) * 1 + 1 * 0 = 0; omega

theorem read_weight (c : Dev nD) (t : Fin cfg6.N) (k : Fin 32) (q : Fin 16) :
    iblk6 V c 2 t (ix2 k q) = V c main_arg12 (ix2 k q) := by
  obtain ⟨-, -, -, -, e4, e5, -⟩ := idx_facts t
  show V c main_arg12 (((cfg6.win 2).blk t).view.emb (ix2 k q)) = _
  refine congrArg (V c main_arg12) (funext fun a => Fin.ext ?_)
  match a with
  | ⟨0, _⟩ => show win6_2.index t (0 : Fin 2) * 32 + 1 * k.val = k.val; omega
  | ⟨1, _⟩ => show win6_2.index t (1 : Fin 2) * 16 + 1 * q.val = q.val; omega

/-- What point t writes back is block t of the stage of the arrays as the region finds them. -/
theorem flushed_eq (d : DotDims S100000x32 S32x16 S100000x16) (hd : Cert.RowOps.IsPlain d)
    (hb : S100000x1.BroadcastsInDim S100000x32 ![0, 1]) (c : Dev nD) (t : Fin cfg6.N) :
    (dat6 V c).flushed 3 t = ((cfg6.win 3).blk t).view.read (Elt Ideal)
      (Cert.Stage.scaleDot d hb (V c main_v58) (V c main_v11) (V c main_arg12)) := by
  show (cfg6.win 3).cut (grid6.coords t) ((dat6 V c).after 3 t) = _
  rw [after6_3]
  unfold out6_3
  rw [View.canon_unit_zero hz]
  simp only [View.ld_unit_zero (S := S5000x32) hz, View.ld_unit_zero (S := S5000x1) hz, View.ld_unit_zero (S := S32x16) hz]
  have ht : t.val < 20 := by have := t.isLt; have hN : cfg6.N = 20 := N_6; omega
  obtain ⟨-, -, -, -, -, -, e6, e7⟩ := idx_facts t
  funext j
  obtain ⟨r, q, rfl⟩ : ∃ (r : Fin 5000) (q : Fin 16), j = ix2 r q := ⟨j 0, j 1, eq_ix2 j⟩
  have hR : t.val * 5000 + r.val < 100000 := by have := r.isLt; omega
  have hemb : ((cfg6.win 3).blk t).view.emb (ix2 r q) = ix2 (⟨t.val * 5000 + r.val, hR⟩ : Fin 100000) q :=
    funext fun a => Fin.ext (by
      match a with
      | ⟨0, _⟩ => show win6_3.index t (0 : Fin 2) * 5000 + 1 * r.val = t.val * 5000 + r.val; omega
      | ⟨1, _⟩ => show win6_3.index t (1 : Fin 2) * 16 + 1 * q.val = q.val; omega)
  show k6_pay1 (iblk6 V c 0 t) (iblk6 V c 1 t) (iblk6 V c 2 t) (ix2 r q)
    = Cert.Stage.scaleDot d hb (V c main_v58) (V c main_v11) (V c main_arg12) (((cfg6.win 3).blk t).view.emb (ix2 r q))
  rw [hemb, Cert.Stage.scaleDot_apply hd]
  unfold k6_pay1
  refine (Cert.Stage.scaleDotBlockCast_apply plain (iblk6 V c 0 t) (iblk6 V c 1 t) (iblk6 V c 2 t) _ _ _ _ r q).trans ?_
  refine Finset.sum_congr rfl fun k _ => ?_
  rw [read_rows V c t r k hR, read_col V c t r hR, read_weight V c t k q]

theorem mem_blk (t : Fin cfg6.N) (i : S100000x16.Idx) :
    i ∈ ((cfg6.win 3).blk t).view.set ↔ ∀ a : Fin 2, win6_3.index t a * S5000x16.size a ≤ (i a).val ∧ (i a).val < win6_3.index t a * S5000x16.size a + S5000x16.size a := by
  show i ∈ ((View.whole main_v59).slice (win6_3.rect t)).set ↔ _
  rw [View.set_slice_whole, Rect.mem_set_unit]
  exact Iff.rfl

/-- Row i₀ of the output lies in the block written at point i₀ / 5000. -/
theorem cover (i : S100000x16.Idx) :
    ∃ t : Fin cfg6.N, (cfg6.win 3).flush t = true ∧ i ∈ ((cfg6.win 3).blk t).view.set := by
  have hi0 : (i 0).val < 100000 := (i 0).isLt
  have hi1 : (i 1).val < 16 := (i 1).isLt
  have hN : cfg6.N = 20 := N_6
  have hlt : (i 0).val / 5000 < cfg6.N := by omega
  obtain ⟨-, -, -, -, -, -, e6, e7⟩ := idx_facts ⟨(i 0).val / 5000, hlt⟩
  have e6' : win6_3.index ⟨(i 0).val / 5000, hlt⟩ (0 : Fin 2) = (i 0).val / 5000 := e6
  refine ⟨⟨(i 0).val / 5000, hlt⟩, flush6_3 _, ?_⟩
  rw [mem_blk]
  intro a
  match a with
  | ⟨0, _⟩ => show win6_3.index ⟨(i 0).val / 5000, hlt⟩ (0 : Fin 2) * 5000 ≤ (i 0).val ∧ (i 0).val < win6_3.index ⟨(i 0).val / 5000, hlt⟩ (0 : Fin 2) * 5000 + 5000; omega
  | ⟨1, _⟩ => show win6_3.index ⟨(i 0).val / 5000, hlt⟩ (1 : Fin 2) * 16 ≤ (i 1).val ∧ (i 1).val < win6_3.index ⟨(i 0).val / 5000, hlt⟩ (1 : Fin 2) * 16 + 16; omega

/-- The output array after the region: the stage of the input arrays as the region finds them. -/
theorem arr (d : DotDims S100000x32 S32x16 S100000x16) (hd : Cert.RowOps.IsPlain d)
    (hb : S100000x1.BroadcastsInDim S100000x32 ![0, 1]) (c : Dev nD) :
    (dat6 V c).arrAt 3 cfg6.N = Cert.Stage.scaleDot d hb (V c main_v58) (V c main_v11) (V c main_arg12) :=
  (dat6 V c).arrAt_eq_of_cover 3 _ (fun t _ => flushed_eq V d hd hb c t) cover

end Cert.KernelIdeal.Region6

end
-- ==== Proof.Region7.lean ====
/-
  Region 7 of the kernel program as one function of whole arrays.

  The region walks twenty blocks of 5000 rows.  At block t it reads rows 5000·t … 5000·t + 4999 of its row-wise
  inputs and the whole of its small inputs, and writes the same rows of its output: each row scaled by its entry of the column, plus the bias row, plus the single entry, clipped at zero, and then every row divided by the sum of its exponentials after the row's maximum is subtracted.
  Entry (r, c) of the block written at t is entry (5000·t + r, c) of the whole-array stage applied to the arrays as
  the region finds them; the twenty blocks tile the output, so the output array ends as that stage of the inputs.
-/
import proofs.«171604_j10316511445242_1_alg».proof.Proof.Gen.KernelIdeal.Frame
import proofs.«171604_j10316511445242_1_alg».proof.Proof.Stage
import Idealize.ShloMosaic.Lib.Pipeline.Value

set_option maxRecDepth 16384

noncomputable section

namespace Cert.KernelIdeal.Region7

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at point t: rows move with t, the bias row and the single entry stay. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

theorem read_rows (c : Dev nD) (t : Fin cfg7.N) (r : Fin 5000) (q : Fin 16) (hR : t.val * 5000 + r.val < 100000) :
    iblk7 V c 0 t (ix2 r q) = V c main_v69 (ix2 (⟨t.val * 5000 + r.val, hR⟩ : Fin 100000) q) := by
  obtain ⟨e0, e1, -⟩ := idx_facts t
  show V c main_v69 (((cfg7.win 0).blk t).view.emb (ix2 r q)) = _
  refine congrArg (V c main_v69) (funext fun a => Fin.ext ?_)
  match a with
  | ⟨0, _⟩ => show win7_0.index t (0 : Fin 2) * 5000 + 1 * r.val = t.val * 5000 + r.val; omega
  | ⟨1, _⟩ => show win7_0.index t (1 : Fin 2) * 16 + 1 * q.val = q.val; omega

theorem read_col (c : Dev nD) (t : Fin cfg7.N) (r : Fin 5000) (hR : t.val * 5000 + r.val < 100000) :
    iblk7 V c 1 t (ix2 r (0 : Fin 1)) = V c main_v16 (ix2 (⟨t.val * 5000 + r.val, hR⟩ : Fin 100000) (0 : Fin 1)) := by
  obtain ⟨-, -, e2, e3, -⟩ := idx_facts t
  show V c main_v16 (((cfg7.win 1).blk t).view.emb (ix2 r (0 : Fin 1))) = _
  refine congrArg (V c main_v16) (funext fun a => Fin.ext ?_)
  match a with
  | ⟨0, _⟩ => show win7_1.index t (0 : Fin 2) * 5000 + 1 * r.val = t.val * 5000 + r.val; omega
  | ⟨1, _⟩ => show win7_1.index t (1 : Fin 2) * 1 + 1 * 0 = 0; omega

theorem read_bias (c : Dev nD) (t : Fin cfg7.N) (q : Fin 16) :
    iblk7 V c 2 t (ix2 (0 : Fin 1) q) = V c main_v70 (ix2 (0 : Fin 1) q) := by
  obtain ⟨-, -, -, -, e4, e5, -⟩ := idx_facts t
  show V c main_v70 (((cfg7.win 2).blk t).view.emb (ix2 (0 : Fin 1) q)) = _
  refine congrArg (V c main_v70) (funext fun a => Fin.ext ?_)
  match a with
  | ⟨0, _⟩ => show win7_2.index t (0 : Fin 2) * 1 + 1 * 0 = 0; omega
  | ⟨1, _⟩ => show win7_2.index t (1 : Fin 2) * 16 + 1 * q.val = q.val; omega

theorem read_one (c : Dev nD) (t : Fin cfg7.N) :
    iblk7 V c 3 t (ix2 (0 : Fin 1) (0 : Fin 1)) = V c main_v71 (ix2 (0 : Fin 1) (0 : Fin 1)) := by
  obtain ⟨-, -, -, -, -, -, e6, e7, -⟩ := idx_facts t
  show V c main_v71 (((cfg7.win 3).blk t).view.emb (ix2 (0 : Fin 1) (0 : Fin 1))) = _
  refine congrArg (V c main_v71) (funext fun a => Fin.ext ?_)
  match a with
  | ⟨0, _⟩ => show win7_3.index t (0 : Fin 2) * 1 + 1 * 0 = 0; omega
  | ⟨1, _⟩ => show win7_3.index t (1 : Fin 2) * 1 + 1 * 0 = 0; omega

/-- The clipped affine part of the block at point t, at (r, q): the whole-array stage at (5000·t + r, q). -/
theorem clip_eq (hc : S100000x1.BroadcastsInDim S100000x16 ![0, 1]) (hr : S1x16.BroadcastsInDim S100000x16 ![0, 1])
    (ho : S1x1.BroadcastsInDim S100000x16 ![0, 1]) (h0 : S_.BroadcastsInDim S100000x16 ![])
    (c : Dev nD) (t : Fin cfg7.N) (r : Fin 5000) (q : Fin 16) (hR : t.val * 5000 + r.val < 100000) :
    (maximumf (addf (addf (mulf (shapeCast S5000x16 (iblk7 V c 0 t) shapeCasts_S5000x16_S5000x16) (broadcastTo S5000x16 (shapeCast S5000x1 (iblk7 V c 1 t) shapeCasts_S5000x1_S5000x1) broadcasts_S5000x1_S5000x16)) (broadcastTo S5000x16 (shapeCast S1x16 (iblk7 V c 2 t) shapeCasts_S1x16_S1x16) broadcasts_S1x16_S5000x16)) (broadcastTo S5000x16 (shapeCast S1x1 (iblk7 V c 3 t) shapeCasts_S1x1_S1x1) broadcasts_S1x1_S5000x16)) (broadcast S5000x16 (Scalar.ofBits (F := Ideal) .f32 0x00000000#32))) (ix2 r q)
      = Cert.Stage.affineClip hc hr ho h0 (V c main_v69) (V c main_v16) (V c main_v70) (V c main_v71) (ix2 (⟨t.val * 5000 + r.val, hR⟩ : Fin 100000) q) := by
  rw [Cert.Stage.affineClip_apply]
  refine (Cert.Stage.affineClipBlock_apply (iblk7 V c 0 t) (iblk7 V c 1 t) (iblk7 V c 2 t) (iblk7 V c 3 t) _ _ _ _ _ _ _ r q).trans ?_
  rw [read_rows V c t r q hR, read_col V c t r hR, read_bias V c t q, read_one V c t]

/-- What point t writes back is block t of the stage of the arrays as the region finds them. -/
theorem flushed_eq (hc : S100000x1.BroadcastsInDim S100000x16 ![0, 1]) (hr : S1x16.BroadcastsInDim S100000x16 ![0, 1])
    (ho : S1x1.BroadcastsInDim S100000x16 ![0, 1]) (h0 : S_.BroadcastsInDim S100000x16 ![])
    (hm : S100000x16.ReducesTo [1] S100000) (hrd : S100000x16.Reduces [1] S100000) (hu : 0 < S_.numel)
    (g0 : S_.BroadcastsInDim S100000 ![]) (gcol : S100000.BroadcastsInDim S100000x1 ![0]) (c : Dev nD) (t : Fin cfg7.N) :
    (dat7 V c).flushed 4 t = ((cfg7.win 4).blk t).view.read (Elt Ideal)
      (Cert.Stage.rowSoftmax hm hu g0 gcol hc (Cert.Stage.affineClip hc hr ho h0 (V c main_v69) (V c main_v16) (V c main_v70) (V c main_v71))) := by
  show (cfg7.win 4).cut (grid7.coords t) ((dat7 V c).after 4 t) = _
  rw [after7_4]
  unfold out7_4
  rw [View.canon_unit_zero hz]
  simp only [View.ld_unit_zero (S := S5000x16) hz, View.ld_unit_zero (S := S5000x1) hz, View.ld_unit_zero (S := S1x16) hz, View.ld_unit_zero (S := S1x1) hz]
  have ht : t.val < 20 := by have := t.isLt; have hN : cfg7.N = 20 := N_7; omega
  obtain ⟨-, -, -, -, -, -, -, -, e8, e9⟩ := idx_facts t
  funext j
  obtain ⟨r, q, rfl⟩ : ∃ (r : Fin 5000) (q : Fin 16), j = ix2 r q := ⟨j 0, j 1, eq_ix2 j⟩
  have hR : t.val * 5000 + r.val < 100000 := by have := r.isLt; omega
  have hemb : ((cfg7.win 4).blk t).view.emb (ix2 r q) = ix2 (⟨t.val * 5000 + r.val, hR⟩ : Fin 100000) q :=
    funext fun a => Fin.ext (by
      match a with
      | ⟨0, _⟩ => show win7_4.index t (0 : Fin 2) * 5000 + 1 * r.val = t.val * 5000 + r.val; omega
      | ⟨1, _⟩ => show win7_4.index t (1 : Fin 2) * 16 + 1 * q.val = q.val; omega)
  show k7_pay1 (iblk7 V c 0 t) (iblk7 V c 1 t) (iblk7 V c 2 t) (iblk7 V c 3 t) (ix2 r q)
    = (Cert.Stage.rowSoftmax hm hu g0 gcol hc (Cert.Stage.affineClip hc hr ho h0 (V c main_v69) (V c main_v16) (V c main_v70) (V c main_v71))) (((cfg7.win 4).blk t).view.emb (ix2 r q))
  rw [hemb]
  unfold k7_pay1
  rw [Cert.Stage.rowSoftmax_apply hm hrd hu g0 gcol hc]
  refine (Cert.Stage.rowSoftmaxBlock_apply (maximumf (addf (addf (mulf (shapeCast S5000x16 (iblk7 V c 0 t) shapeCasts_S5000x16_S5000x16) (broadcastTo S5000x16 (shapeCast S5000x1 (iblk7 V c 1 t) shapeCasts_S5000x1_S5000x1) broadcasts_S5000x1_S5000x16)) (broadcastTo S5000x16 (shapeCast S1x16 (iblk7 V c 2 t) shapeCasts_S1x16_S1x16) broadcasts_S1x16_S5000x16)) (broadcastTo S5000x16 (shapeCast S1x1 (iblk7 V c 3 t) shapeCasts_S1x1_S1x1) broadcasts_S1x1_S5000x16)) (broadcast S5000x16 (Scalar.ofBits (F := Ideal) .f32 0x00000000#32))) _ _ _ _ _ _ r q).trans ?_
  have hrow : ∀ k : Fin 16, (maximumf (addf (addf (mulf (shapeCast S5000x16 (iblk7 V c 0 t) shapeCasts_S5000x16_S5000x16) (broadcastTo S5000x16 (shapeCast S5000x1 (iblk7 V c 1 t) shapeCasts_S5000x1_S5000x1) broadcasts_S5000x1_S5000x16)) (broadcastTo S5000x16 (shapeCast S1x16 (iblk7 V c 2 t) shapeCasts_S1x16_S1x16) broadcasts_S1x16_S5000x16)) (broadcastTo S5000x16 (shapeCast S1x1 (iblk7 V c 3 t) shapeCasts_S1x1_S1x1) broadcasts_S1x1_S5000x16)) (broadcast S5000x16 (Scalar.ofBits (F := Ideal) .f32 0x00000000#32))) (ix2 r k)
      = Cert.Stage.affineClip hc hr ho h0 (V c main_v69) (V c main_v16) (V c main_v70) (V c main_v71) (ix2 (⟨t.val * 5000 + r.val, hR⟩ : Fin 100000) k) :=
    fun k => clip_eq V hc hr ho h0 c t r k hR
  rw [Cert.Stage.shifted_congr _ _ r (⟨t.val * 5000 + r.val, hR⟩ : Fin 100000) hrow q]
  exact congrArg (Ideal.div _) (Finset.sum_congr rfl fun k _ => Cert.Stage.shifted_congr _ _ r _ hrow k)

theorem mem_blk (t : Fin cfg7.N) (i : S100000x16.Idx) :
    i ∈ ((cfg7.win 4).blk t).view.set ↔ ∀ a : Fin 2, win7_4.index t a * S5000x16.size a ≤ (i a).val ∧ (i a).val < win7_4.index t a * S5000x16.size a + S5000x16.size a := by
  show i ∈ ((View.whole main_v72).slice (win7_4.rect t)).set ↔ _
  rw [View.set_slice_whole, Rect.mem_set_unit]
  exact Iff.rfl

/-- Row i₀ of the output lies in the block written at point i₀ / 5000. -/
theorem cover (i : S100000x16.Idx) :
    ∃ t : Fin cfg7.N, (cfg7.win 4).flush t = true ∧ i ∈ ((cfg7.win 4).blk t).view.set := by
  have hi0 : (i 0).val < 100000 := (i 0).isLt
  have hi1 : (i 1).val < 16 := (i 1).isLt
  have hN : cfg7.N = 20 := N_7
  have hlt : (i 0).val / 5000 < cfg7.N := by omega
  obtain ⟨-, -, -, -, -, -, -, -, e8, e9⟩ := idx_facts ⟨(i 0).val / 5000, hlt⟩
  have e8' : win7_4.index ⟨(i 0).val / 5000, hlt⟩ (0 : Fin 2) = (i 0).val / 5000 := e8
  refine ⟨⟨(i 0).val / 5000, hlt⟩, flush7_4 _, ?_⟩
  rw [mem_blk]
  intro a
  match a with
  | ⟨0, _⟩ => show win7_4.index ⟨(i 0).val / 5000, hlt⟩ (0 : Fin 2) * 5000 ≤ (i 0).val ∧ (i 0).val < win7_4.index ⟨(i 0).val / 5000, hlt⟩ (0 : Fin 2) * 5000 + 5000; omega
  | ⟨1, _⟩ => show win7_4.index ⟨(i 0).val / 5000, hlt⟩ (1 : Fin 2) * 16 ≤ (i 1).val ∧ (i 1).val < win7_4.index ⟨(i 0).val / 5000, hlt⟩ (1 : Fin 2) * 16 + 16; omega

/-- The output array after the region: the stage of the input arrays as the region finds them. -/
theorem arr (hc : S100000x1.BroadcastsInDim S100000x16 ![0, 1]) (hr : S1x16.BroadcastsInDim S100000x16 ![0, 1])
    (ho : S1x1.BroadcastsInDim S100000x16 ![0, 1]) (h0 : S_.BroadcastsInDim S100000x16 ![])
    (hm : S100000x16.ReducesTo [1] S100000) (hrd : S100000x16.Reduces [1] S100000) (hu : 0 < S_.numel)
    (g0 : S_.BroadcastsInDim S100000 ![]) (gcol : S100000.BroadcastsInDim S100000x1 ![0]) (c : Dev nD) :
    (dat7 V c).arrAt 4 cfg7.N = Cert.Stage.rowSoftmax hm hu g0 gcol hc (Cert.Stage.affineClip hc hr ho h0 (V c main_v69) (V c main_v16) (V c main_v70) (V c main_v71)) :=
  (dat7 V c).arrAt_eq_of_cover 4 _ (fun t _ => flushed_eq V hc hr ho h0 hm hrd hu g0 gcol c t) cover

end Cert.KernelIdeal.Region7

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.Line.lean ====
/-
  The kernel program as one line of operations.

  Each block-wise region leaves the boundary's contents as one whole-array operation would: its output array at the
  layer's stage of its input arrays, every other buffer untouched.  With the eight regions read this way the program is
  a single line of plain array operations over the launch contents, and what the result array holds at the end is that
  line's computation.
-/
import proofs.«171604_j10316511445242_1_alg».proof.Proof.Region0
import proofs.«171604_j10316511445242_1_alg».proof.Proof.Region1
import proofs.«171604_j10316511445242_1_alg».proof.Proof.Region2
import proofs.«171604_j10316511445242_1_alg».proof.Proof.Region3
import proofs.«171604_j10316511445242_1_alg».proof.Proof.Region4
import proofs.«171604_j10316511445242_1_alg».proof.Proof.Region5
import proofs.«171604_j10316511445242_1_alg».proof.Proof.Region6
import proofs.«171604_j10316511445242_1_alg».proof.Proof.Region7
import proofs.«171604_j10316511445242_1_alg».proof.Proof.LibRegionOp
import proofs.«171604_j10316511445242_1_alg».proof.Proof.Gen.ReferenceIdeal

set_option maxRecDepth 16384

noncomputable section

namespace Cert.KernelIdeal.Line

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- Region 0's stage, over whole arrays. -/
abbrev fn0 : (⟨S100000x256, .f32⟩ : BufTy).Contents (Elt Ideal) → (⟨S100000x1, .f32⟩ : BufTy).Contents (Elt Ideal) → (⟨S256x128, .f32⟩ : BufTy).Contents (Elt Ideal) → (⟨S100000x128, .f32⟩ : BufTy).Contents (Elt Ideal) :=
  fun h col W => Cert.Stage.scaleDot Cert.ReferenceIdeal.dot_S100000x256_S256x128_S100000x128_1_0_0_1_n_n Cert.ReferenceIdeal.Gen.bcast_S100000x1_S100000x256_0_1 h col W

/-- Region 0 as one operation of the line. -/
abbrev op0 : HloOp τ sig (Elt Ideal) :=
  ternary main_arg0 main_v11 main_arg3 main_v17 fn0

/-- Region 1's stage, over whole arrays. -/
abbrev fn1 : (⟨S100000x128, .f32⟩ : BufTy).Contents (Elt Ideal) → (⟨S100000x1, .f32⟩ : BufTy).Contents (Elt Ideal) → (⟨S1x128, .f32⟩ : BufTy).Contents (Elt Ideal) → (⟨S1x1, .f32⟩ : BufTy).Contents (Elt Ideal) → (⟨S100000x128, .f32⟩ : BufTy).Contents (Elt Ideal) :=
  fun a col row one => Cert.Stage.affineClip Cert.ReferenceIdeal.Gen.bcast_S100000x1_S100000x128_0_1 Cert.ReferenceIdeal.Gen.bcast_S1x128_S100000x128_0_1 Cert.ReferenceIdeal.Gen.bcast_S1x1_S100000x128_0_1 Cert.ReferenceIdeal.Gen.bcast_S_S100000x128 a col row one

/-- Region 1 as one operation of the line. -/
abbrev op1 : HloOp τ sig (Elt Ideal) :=
  quaternary main_v27 main_v16 main_v28 main_v29 main_v30 fn1

/-- Region 2's stage, over whole arrays. -/
abbrev fn2 : (⟨S100000x128, .f32⟩ : BufTy).Contents (Elt Ideal) → (⟨S100000x1, .f32⟩ : BufTy).Contents (Elt Ideal) → (⟨S128x64, .f32⟩ : BufTy).Contents (Elt Ideal) → (⟨S100000x64, .f32⟩ : BufTy).Contents (Elt Ideal) :=
  fun h col W => Cert.Stage.scaleDot Cert.ReferenceIdeal.dot_S100000x128_S128x64_S100000x64_1_0_0_1_n_n Cert.ReferenceIdeal.Gen.bcast_S100000x1_S100000x128_0_1 h col W

/-- Region 2 as one operation of the line. -/
abbrev op2 : HloOp τ sig (Elt Ideal) :=
  ternary main_v30 main_v11 main_arg6 main_v31 fn2

/-- Region 3's stage, over whole arrays. -/
abbrev fn3 : (⟨S100000x64, .f32⟩ : BufTy).Contents (Elt Ideal) → (⟨S100000x1, .f32⟩ : BufTy).Contents (Elt Ideal) → (⟨S1x64, .f32⟩ : BufTy).Contents (Elt Ideal) → (⟨S1x1, .f32⟩ : BufTy).Contents (Elt Ideal) → (⟨S100000x64, .f32⟩ : BufTy).Contents (Elt Ideal) :=
  fun a col row one => Cert.Stage.affineClip Cert.ReferenceIdeal.Gen.bcast_S100000x1_S100000x64_0_1 Cert.ReferenceIdeal.Gen.bcast_S1x64_S100000x64_0_1 Cert.ReferenceIdeal.Gen.bcast_S1x1_S100000x64_0_1 Cert.ReferenceIdeal.Gen.bcast_S_S100000x64 a col row one

/-- Region 3 as one operation of the line. -/
abbrev op3 : HloOp τ sig (Elt Ideal) :=
  quaternary main_v41 main_v16 main_v42 main_v43 main_v44 fn3

/-- Region 4's stage, over whole arrays. -/
abbrev fn4 : (⟨S100000x64, .f32⟩ : BufTy).Contents (Elt Ideal) → (⟨S100000x1, .f32⟩ : BufTy).Contents (Elt Ideal) → (⟨S64x32, .f32⟩ : BufTy).Contents (Elt Ideal) → (⟨S100000x32, .f32⟩ : BufTy).Contents (Elt Ideal) :=
  fun h col W => Cert.Stage.scaleDot Cert.ReferenceIdeal.dot_S100000x64_S64x32_S100000x32_1_0_0_1_n_n Cert.ReferenceIdeal.Gen.bcast_S100000x1_S100000x64_0_1 h col W

/-- Region 4 as one operation of the line. -/
abbrev op4 : HloOp τ sig (Elt Ideal) :=
  ternary main_v44 main_v11 main_arg9 main_v45 fn4

/-- Region 5's stage, over whole arrays. -/
abbrev fn5 : (⟨S100000x32, .f32⟩ : BufTy).Contents (Elt Ideal) → (⟨S100000x1, .f32⟩ : BufTy).Contents (Elt Ideal) → (⟨S1x32, .f32⟩ : BufTy).Contents (Elt Ideal) → (⟨S1x1, .f32⟩ : BufTy).Contents (Elt Ideal) → (⟨S100000x32, .f32⟩ : BufTy).Contents (Elt Ideal) :=
  fun a col row one => Cert.Stage.affineClip Cert.ReferenceIdeal.Gen.bcast_S100000x1_S100000x32_0_1 Cert.ReferenceIdeal.Gen.bcast_S1x32_S100000x32_0_1 Cert.ReferenceIdeal.Gen.bcast_S1x1_S100000x32_0_1 Cert.ReferenceIdeal.Gen.bcast_S_S100000x32 a col row one

/-- Region 5 as one operation of the line. -/
abbrev op5 : HloOp τ sig (Elt Ideal) :=
  quaternary main_v55 main_v16 main_v56 main_v57 main_v58 fn5

/-- Region 6's stage, over whole arrays. -/
abbrev fn6 : (⟨S100000x32, .f32⟩ : BufTy).Contents (Elt Ideal) → (⟨S100000x1, .f32⟩ : BufTy).Contents (Elt Ideal) → (⟨S32x16, .f32⟩ : BufTy).Contents (Elt Ideal) → (⟨S100000x16, .f32⟩ : BufTy).Contents (Elt Ideal) :=
  fun h col W => Cert.Stage.scaleDot Cert.ReferenceIdeal.dot_S100000x32_S32x16_S100000x16_1_0_0_1_n_n Cert.ReferenceIdeal.Gen.bcast_S100000x1_S100000x32_0_1 h col W

/-- Region 6 as one operation of the line. -/
abbrev op6 : HloOp τ sig (Elt Ideal) :=
  ternary main_v58 main_v11 main_arg12 main_v59 fn6

/-- Region 7's stage, over whole arrays. -/
abbrev fn7 : (⟨S100000x16, .f32⟩ : BufTy).Contents (Elt Ideal) → (⟨S100000x1, .f32⟩ : BufTy).Contents (Elt Ideal) → (⟨S1x16, .f32⟩ : BufTy).Contents (Elt Ideal) → (⟨S1x1, .f32⟩ : BufTy).Contents (Elt Ideal) → (⟨S100000x16, .f32⟩ : BufTy).Contents (Elt Ideal) :=
  fun a col row one => Cert.Stage.rowSoftmax Cert.ReferenceIdeal.Gen.reducesTo_S100000x16_S100000_d1 Cert.ReferenceIdeal.Gen.h_S_ Cert.ReferenceIdeal.Gen.bcast_S_S100000 Cert.ReferenceIdeal.Gen.bcast_S100000_S100000x1_0 Cert.ReferenceIdeal.Gen.bcast_S100000x1_S100000x16_0_1 (Cert.Stage.affineClip Cert.ReferenceIdeal.Gen.bcast_S100000x1_S100000x16_0_1 Cert.ReferenceIdeal.Gen.bcast_S1x16_S100000x16_0_1 Cert.ReferenceIdeal.Gen.bcast_S1x1_S100000x16_0_1 Cert.ReferenceIdeal.Gen.bcast_S_S100000x16 a col row one)

/-- Region 7 as one operation of the line. -/
abbrev op7 : HloOp τ sig (Elt Ideal) :=
  quaternary main_v69 main_v16 main_v70 main_v71 main_v72 fn7

set_option maxHeartbeats 2000000 in
/-- Region 0 rewrites the boundary's contents as its operation does: its output array ends at the stage of its
    inputs, its input arrays as it found them, and it writes nothing else. -/
theorem W2_eq (c : Dev nD) : W2 m ρ c = (op0).result (W1 m ρ c) :=
  Cert.RegionOp.withArrays_eq_result spec0 launch0.win.arr_inj c (W1 m ρ c)
    (fun w => (dat0 (V1 m ρ) c).arrAt w cfg0.N) op0 3 rfl
    ((Cert.KernelIdeal.Region0.arr (V1 m ρ) Cert.ReferenceIdeal.dot_S100000x256_S256x128_S100000x128_1_0_0_1_n_n ⟨rfl, rfl, rfl, rfl, rfl, rfl⟩ Cert.ReferenceIdeal.Gen.bcast_S100000x1_S100000x256_0_1 c).trans (ternary_result main_arg0 main_v11 main_arg3 main_v17 fn0 _ _ _ _ (W1 m ρ c)).symm)
    (fun w hw => by
      match w, hw with
      | ⟨0, _⟩, _ => exact ((dat0 (V1 m ρ) c).arrAt_in 0 rfl _).trans (A_eq0 (V1 m ρ) c 0)
      | ⟨1, _⟩, _ => exact ((dat0 (V1 m ρ) c).arrAt_in 1 rfl _).trans (A_eq0 (V1 m ρ) c 1)
      | ⟨2, _⟩, _ => exact ((dat0 (V1 m ρ) c).arrAt_in 2 rfl _).trans (A_eq0 (V1 m ρ) c 2)
      | ⟨3, _⟩, hw => exact absurd rfl hw)

set_option maxHeartbeats 2000000 in
/-- Region 1 rewrites the boundary's contents as its operation does: its output array ends at the stage of its
    inputs, its input arrays as it found them, and it writes nothing else. -/
theorem W4_eq (c : Dev nD) : W4 m ρ c = (op1).result (W3 m ρ c) :=
  Cert.RegionOp.withArrays_eq_result spec1 launch1.win.arr_inj c (W3 m ρ c)
    (fun w => (dat1 (V3 m ρ) c).arrAt w cfg1.N) op1 4 rfl
    ((Cert.KernelIdeal.Region1.arr (V3 m ρ) Cert.ReferenceIdeal.Gen.bcast_S100000x1_S100000x128_0_1 Cert.ReferenceIdeal.Gen.bcast_S1x128_S100000x128_0_1 Cert.ReferenceIdeal.Gen.bcast_S1x1_S100000x128_0_1 Cert.ReferenceIdeal.Gen.bcast_S_S100000x128 c).trans (quaternary_result main_v27 main_v16 main_v28 main_v29 main_v30 fn1 _ _ _ _ _ (W3 m ρ c)).symm)
    (fun w hw => by
      match w, hw with
      | ⟨0, _⟩, _ => exact ((dat1 (V3 m ρ) c).arrAt_in 0 rfl _).trans (A_eq1 (V3 m ρ) c 0)
      | ⟨1, _⟩, _ => exact ((dat1 (V3 m ρ) c).arrAt_in 1 rfl _).trans (A_eq1 (V3 m ρ) c 1)
      | ⟨2, _⟩, _ => exact ((dat1 (V3 m ρ) c).arrAt_in 2 rfl _).trans (A_eq1 (V3 m ρ) c 2)
      | ⟨3, _⟩, _ => exact ((dat1 (V3 m ρ) c).arrAt_in 3 rfl _).trans (A_eq1 (V3 m ρ) c 3)
      | ⟨4, _⟩, hw => exact absurd rfl hw)

set_option maxHeartbeats 2000000 in
/-- Region 2 rewrites the boundary's contents as its operation does: its output array ends at the stage of its
    inputs, its input arrays as it found them, and it writes nothing else. -/
theorem W5_eq (c : Dev nD) : W5 m ρ c = (op2).result (W4 m ρ c) :=
  Cert.RegionOp.withArrays_eq_result spec2 launch2.win.arr_inj c (W4 m ρ c)
    (fun w => (dat2 (V4 m ρ) c).arrAt w cfg2.N) op2 3 rfl
    ((Cert.KernelIdeal.Region2.arr (V4 m ρ) Cert.ReferenceIdeal.dot_S100000x128_S128x64_S100000x64_1_0_0_1_n_n ⟨rfl, rfl, rfl, rfl, rfl, rfl⟩ Cert.ReferenceIdeal.Gen.bcast_S100000x1_S100000x128_0_1 c).trans (ternary_result main_v30 main_v11 main_arg6 main_v31 fn2 _ _ _ _ (W4 m ρ c)).symm)
    (fun w hw => by
      match w, hw with
      | ⟨0, _⟩, _ => exact ((dat2 (V4 m ρ) c).arrAt_in 0 rfl _).trans (A_eq2 (V4 m ρ) c 0)
      | ⟨1, _⟩, _ => exact ((dat2 (V4 m ρ) c).arrAt_in 1 rfl _).trans (A_eq2 (V4 m ρ) c 1)
      | ⟨2, _⟩, _ => exact ((dat2 (V4 m ρ) c).arrAt_in 2 rfl _).trans (A_eq2 (V4 m ρ) c 2)
      | ⟨3, _⟩, hw => exact absurd rfl hw)

set_option maxHeartbeats 2000000 in
/-- Region 3 rewrites the boundary's contents as its operation does: its output array ends at the stage of its
    inputs, its input arrays as it found them, and it writes nothing else. -/
theorem W7_eq (c : Dev nD) : W7 m ρ c = (op3).result (W6 m ρ c) :=
  Cert.RegionOp.withArrays_eq_result spec3 launch3.win.arr_inj c (W6 m ρ c)
    (fun w => (dat3 (V6 m ρ) c).arrAt w cfg3.N) op3 4 rfl
    ((Cert.KernelIdeal.Region3.arr (V6 m ρ) Cert.ReferenceIdeal.Gen.bcast_S100000x1_S100000x64_0_1 Cert.ReferenceIdeal.Gen.bcast_S1x64_S100000x64_0_1 Cert.ReferenceIdeal.Gen.bcast_S1x1_S100000x64_0_1 Cert.ReferenceIdeal.Gen.bcast_S_S100000x64 c).trans (quaternary_result main_v41 main_v16 main_v42 main_v43 main_v44 fn3 _ _ _ _ _ (W6 m ρ c)).symm)
    (fun w hw => by
      match w, hw with
      | ⟨0, _⟩, _ => exact ((dat3 (V6 m ρ) c).arrAt_in 0 rfl _).trans (A_eq3 (V6 m ρ) c 0)
      | ⟨1, _⟩, _ => exact ((dat3 (V6 m ρ) c).arrAt_in 1 rfl _).trans (A_eq3 (V6 m ρ) c 1)
      | ⟨2, _⟩, _ => exact ((dat3 (V6 m ρ) c).arrAt_in 2 rfl _).trans (A_eq3 (V6 m ρ) c 2)
      | ⟨3, _⟩, _ => exact ((dat3 (V6 m ρ) c).arrAt_in 3 rfl _).trans (A_eq3 (V6 m ρ) c 3)
      | ⟨4, _⟩, hw => exact absurd rfl hw)

set_option maxHeartbeats 2000000 in
/-- Region 4 rewrites the boundary's contents as its operation does: its output array ends at the stage of its
    inputs, its input arrays as it found them, and it writes nothing else. -/
theorem W8_eq (c : Dev nD) : W8 m ρ c = (op4).result (W7 m ρ c) :=
  Cert.RegionOp.withArrays_eq_result spec4 launch4.win.arr_inj c (W7 m ρ c)
    (fun w => (dat4 (V7 m ρ) c).arrAt w cfg4.N) op4 3 rfl
    ((Cert.KernelIdeal.Region4.arr (V7 m ρ) Cert.ReferenceIdeal.dot_S100000x64_S64x32_S100000x32_1_0_0_1_n_n ⟨rfl, rfl, rfl, rfl, rfl, rfl⟩ Cert.ReferenceIdeal.Gen.bcast_S100000x1_S100000x64_0_1 c).trans (ternary_result main_v44 main_v11 main_arg9 main_v45 fn4 _ _ _ _ (W7 m ρ c)).symm)
    (fun w hw => by
      match w, hw with
      | ⟨0, _⟩, _ => exact ((dat4 (V7 m ρ) c).arrAt_in 0 rfl _).trans (A_eq4 (V7 m ρ) c 0)
      | ⟨1, _⟩, _ => exact ((dat4 (V7 m ρ) c).arrAt_in 1 rfl _).trans (A_eq4 (V7 m ρ) c 1)
      | ⟨2, _⟩, _ => exact ((dat4 (V7 m ρ) c).arrAt_in 2 rfl _).trans (A_eq4 (V7 m ρ) c 2)
      | ⟨3, _⟩, hw => exact absurd rfl hw)

set_option maxHeartbeats 2000000 in
/-- Region 5 rewrites the boundary's contents as its operation does: its output array ends at the stage of its
    inputs, its input arrays as it found them, and it writes nothing else. -/
theorem W10_eq (c : Dev nD) : W10 m ρ c = (op5).result (W9 m ρ c) :=
  Cert.RegionOp.withArrays_eq_result spec5 launch5.win.arr_inj c (W9 m ρ c)
    (fun w => (dat5 (V9 m ρ) c).arrAt w cfg5.N) op5 4 rfl
    ((Cert.KernelIdeal.Region5.arr (V9 m ρ) Cert.ReferenceIdeal.Gen.bcast_S100000x1_S100000x32_0_1 Cert.ReferenceIdeal.Gen.bcast_S1x32_S100000x32_0_1 Cert.ReferenceIdeal.Gen.bcast_S1x1_S100000x32_0_1 Cert.ReferenceIdeal.Gen.bcast_S_S100000x32 c).trans (quaternary_result main_v55 main_v16 main_v56 main_v57 main_v58 fn5 _ _ _ _ _ (W9 m ρ c)).symm)
    (fun w hw => by
      match w, hw with
      | ⟨0, _⟩, _ => exact ((dat5 (V9 m ρ) c).arrAt_in 0 rfl _).trans (A_eq5 (V9 m ρ) c 0)
      | ⟨1, _⟩, _ => exact ((dat5 (V9 m ρ) c).arrAt_in 1 rfl _).trans (A_eq5 (V9 m ρ) c 1)
      | ⟨2, _⟩, _ => exact ((dat5 (V9 m ρ) c).arrAt_in 2 rfl _).trans (A_eq5 (V9 m ρ) c 2)
      | ⟨3, _⟩, _ => exact ((dat5 (V9 m ρ) c).arrAt_in 3 rfl _).trans (A_eq5 (V9 m ρ) c 3)
      | ⟨4, _⟩, hw => exact absurd rfl hw)

set_option maxHeartbeats 2000000 in
/-- Region 6 rewrites the boundary's contents as its operation does: its output array ends at the stage of its
    inputs, its input arrays as it found them, and it writes nothing else. -/
theorem W11_eq (c : Dev nD) : W11 m ρ c = (op6).result (W10 m ρ c) :=
  Cert.RegionOp.withArrays_eq_result spec6 launch6.win.arr_inj c (W10 m ρ c)
    (fun w => (dat6 (V10 m ρ) c).arrAt w cfg6.N) op6 3 rfl
    ((Cert.KernelIdeal.Region6.arr (V10 m ρ) Cert.ReferenceIdeal.dot_S100000x32_S32x16_S100000x16_1_0_0_1_n_n ⟨rfl, rfl, rfl, rfl, rfl, rfl⟩ Cert.ReferenceIdeal.Gen.bcast_S100000x1_S100000x32_0_1 c).trans (ternary_result main_v58 main_v11 main_arg12 main_v59 fn6 _ _ _ _ (W10 m ρ c)).symm)
    (fun w hw => by
      match w, hw with
      | ⟨0, _⟩, _ => exact ((dat6 (V10 m ρ) c).arrAt_in 0 rfl _).trans (A_eq6 (V10 m ρ) c 0)
      | ⟨1, _⟩, _ => exact ((dat6 (V10 m ρ) c).arrAt_in 1 rfl _).trans (A_eq6 (V10 m ρ) c 1)
      | ⟨2, _⟩, _ => exact ((dat6 (V10 m ρ) c).arrAt_in 2 rfl _).trans (A_eq6 (V10 m ρ) c 2)
      | ⟨3, _⟩, hw => exact absurd rfl hw)

set_option maxHeartbeats 2000000 in
/-- Region 7 rewrites the boundary's contents as its operation does: its output array ends at the stage of its
    inputs, its input arrays as it found them, and it writes nothing else. -/
theorem W13_eq (c : Dev nD) : W13 m ρ c = (op7).result (W12 m ρ c) :=
  Cert.RegionOp.withArrays_eq_result spec7 launch7.win.arr_inj c (W12 m ρ c)
    (fun w => (dat7 (V12 m ρ) c).arrAt w cfg7.N) op7 4 rfl
    ((Cert.KernelIdeal.Region7.arr (V12 m ρ) Cert.ReferenceIdeal.Gen.bcast_S100000x1_S100000x16_0_1 Cert.ReferenceIdeal.Gen.bcast_S1x16_S100000x16_0_1 Cert.ReferenceIdeal.Gen.bcast_S1x1_S100000x16_0_1 Cert.ReferenceIdeal.Gen.bcast_S_S100000x16 Cert.ReferenceIdeal.Gen.reducesTo_S100000x16_S100000_d1 (by decide) Cert.ReferenceIdeal.Gen.h_S_ Cert.ReferenceIdeal.Gen.bcast_S_S100000 Cert.ReferenceIdeal.Gen.bcast_S100000_S100000x1_0 c).trans (quaternary_result main_v69 main_v16 main_v70 main_v71 main_v72 fn7 _ _ _ _ _ (W12 m ρ c)).symm)
    (fun w hw => by
      match w, hw with
      | ⟨0, _⟩, _ => exact ((dat7 (V12 m ρ) c).arrAt_in 0 rfl _).trans (A_eq7 (V12 m ρ) c 0)
      | ⟨1, _⟩, _ => exact ((dat7 (V12 m ρ) c).arrAt_in 1 rfl _).trans (A_eq7 (V12 m ρ) c 1)
      | ⟨2, _⟩, _ => exact ((dat7 (V12 m ρ) c).arrAt_in 2 rfl _).trans (A_eq7 (V12 m ρ) c 2)
      | ⟨3, _⟩, _ => exact ((dat7 (V12 m ρ) c).arrAt_in 3 rfl _).trans (A_eq7 (V12 m ρ) c 3)
      | ⟨4, _⟩, hw => exact absurd rfl hw)

end Cert.KernelIdeal.Line

end
-- ==== Proof.Recast.lean ====
/-
  A vector re-read as a column or as a row.

  A length-a vector viewed as an [a, 1] column, or a length-b vector viewed as a [1, b] row, holds the same
  entries whether it is re-read in row-major order at the new shape or repeated along a new axis of extent one:
  both read entry i of the vector at (i, 0), respectively at (0, i).
-/
import proofs.«171604_j10316511445242_1_alg».proof.Proof.Stage

noncomputable section

namespace Cert.Recast

open Idealize.ShloMosaic Idealize.ShloMosaic.ValueIdx Cert.RowOps Cert.Stage

variable {α : Type} {a b : Nat}

/-- Re-read at [a, 1] is repeated along a new second axis. -/
theorem column_eq (x : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [column_apply, hostColumn_apply]

/-- Re-read at [1, b] is repeated along a new first axis. -/
theorem row_eq (x : (⟨1, ![b]⟩ : Shape).Idx → α) (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  have hu : u.val = 0 := by omega
  rw [shapeCast_apply x hc (ix2 u i) (ix1 i) (by
      rw [Shape.rowMajor_val_one, Shape.rowMajor_val_two]
      show i.val = u.val * b + i.val
      rw [hu]; omega),
    broadcastInDim_apply ![1] hb x (ix2 u i) (ix1 i) (fun ax => by
      match ax with
      | ⟨0, _⟩ =>
        show i.val = if b = 1 then 0 else i.val
        split
        · have := i.isLt; omega
        · rfl)]

end Cert.Recast

end
-- ==== Proof.Bridge.lean ====
/-
  The kernel program's result is the reference's value, stage by stage.

  Reading the regions as operations, the result array at the last boundary is the composition, over the launch
  contents, of: the two norms (degrees counted by scatter-add, clipped below at one, to the power −1/2, as columns);
  per layer the scaled product, the gather at src and scatter-add at dst, and the clipped affine stage; and the final
  row normalisation.  The reference computes the same composition operation by operation.  The only difference in
  spelling is that the kernel program re-reads the norms, the biases and the single extra biases at their column and
  row shapes where the reference repeats them along a new axis of extent one — the same arrays.
-/
import proofs.«171604_j10316511445242_1_alg».proof.Proof.Line
import proofs.«171604_j10316511445242_1_alg».proof.Proof.Recast
import proofs.«171604_j10316511445242_1_alg».proof.Proof.Gen.ReferenceIdeal.Read

set_option maxRecDepth 16384

noncomputable section

namespace Cert.KernelIdeal.Bridge

open Cert.KernelIdeal Cert.KernelIdeal.Gen Cert.KernelIdeal.Line Idealize.ShloMosaic Idealize.ShloMosaic.TcCoe Idealize.ShloMosaic.StableHlo

/-- Region 0's stage reads its column the same whether the norm vector was re-read or repeated. -/
theorem fn0_col (h : (⟨S100000x256, .f32⟩ : BufTy).Contents (Elt Ideal)) (n : (⟨S100000, .f32⟩ : BufTy).Contents (Elt Ideal)) (W : (⟨S256x128, .f32⟩ : BufTy).Contents (Elt Ideal))
    (hc : S100000.ShapeCasts S100000x1) :
    fn0 h (fun i => shapeCast main_v11.ty.shape n hc i) W
      = fn0 h (broadcastInDim S100000x1 ![0] Cert.ReferenceIdeal.Gen.bcast_S100000_S100000x1_0 n) W :=
  congrArg (fun col => fn0 h col W) (Cert.Recast.column_eq n hc Cert.ReferenceIdeal.Gen.bcast_S100000_S100000x1_0)

/-- Region 1's stage reads its column the same whether the norm vector was re-read or repeated. -/
theorem fn1_col (a : (⟨S100000x128, .f32⟩ : BufTy).Contents (Elt Ideal)) (n : (⟨S100000, .f32⟩ : BufTy).Contents (Elt Ideal)) (b : (⟨S1x128, .f32⟩ : BufTy).Contents (Elt Ideal)) (s : (⟨S1x1, .f32⟩ : BufTy).Contents (Elt Ideal))
    (hc : S100000.ShapeCasts S100000x1) :
    fn1 a (fun i => shapeCast main_v16.ty.shape n hc i) b s
      = fn1 a (broadcastInDim S100000x1 ![0] Cert.ReferenceIdeal.Gen.bcast_S100000_S100000x1_0 n) b s :=
  congrArg (fun col => fn1 a col b s) (Cert.Recast.column_eq n hc Cert.ReferenceIdeal.Gen.bcast_S100000_S100000x1_0)

/-- … and its bias row the same whether the bias was re-read or repeated. -/
theorem fn1_row (a : (⟨S100000x128, .f32⟩ : BufTy).Contents (Elt Ideal)) (n : (⟨S100000x1, .f32⟩ : BufTy).Contents (Elt Ideal)) (b : (⟨S128, .f32⟩ : BufTy).Contents (Elt Ideal)) (s : (⟨S1x1, .f32⟩ : BufTy).Contents (Elt Ideal))
    (hb : S128.ShapeCasts S1x128) :
    fn1 a n (fun i => shapeCast main_v28.ty.shape b hb i) s
      = fn1 a n (broadcastInDim S1x128 ![1] Cert.ReferenceIdeal.Gen.bcast_S128_S1x128_1 b) s :=
  congrArg (fun row => fn1 a n row s) (Cert.Recast.row_eq b hb Cert.ReferenceIdeal.Gen.bcast_S128_S1x128_1)

/-- … and its single entry the same whether the one-entry vector was re-read or repeated. -/
theorem fn1_one (a : (⟨S100000x128, .f32⟩ : BufTy).Contents (Elt Ideal)) (n : (⟨S100000x1, .f32⟩ : BufTy).Contents (Elt Ideal)) (b : (⟨S1x128, .f32⟩ : BufTy).Contents (Elt Ideal)) (s : (⟨S1, .f32⟩ : BufTy).Contents (Elt Ideal))
    (hs : S1.ShapeCasts S1x1) :
    fn1 a n b (fun i => shapeCast main_v29.ty.shape s hs i)
      = fn1 a n b (broadcastInDim S1x1 ![1] Cert.ReferenceIdeal.Gen.bcast_S1_S1x1_1 s) :=
  congrArg (fun one => fn1 a n b one) (Cert.Recast.row_eq s hs Cert.ReferenceIdeal.Gen.bcast_S1_S1x1_1)

/-- Region 2's stage reads its column the same whether the norm vector was re-read or repeated. -/
theorem fn2_col (h : (⟨S100000x128, .f32⟩ : BufTy).Contents (Elt Ideal)) (n : (⟨S100000, .f32⟩ : BufTy).Contents (Elt Ideal)) (W : (⟨S128x64, .f32⟩ : BufTy).Contents (Elt Ideal))
    (hc : S100000.ShapeCasts S100000x1) :
    fn2 h (fun i => shapeCast main_v11.ty.shape n hc i) W
      = fn2 h (broadcastInDim S100000x1 ![0] Cert.ReferenceIdeal.Gen.bcast_S100000_S100000x1_0 n) W :=
  congrArg (fun col => fn2 h col W) (Cert.Recast.column_eq n hc Cert.ReferenceIdeal.Gen.bcast_S100000_S100000x1_0)

/-- Region 3's stage reads its column the same whether the norm vector was re-read or repeated. -/
theorem fn3_col (a : (⟨S100000x64, .f32⟩ : BufTy).Contents (Elt Ideal)) (n : (⟨S100000, .f32⟩ : BufTy).Contents (Elt Ideal)) (b : (⟨S1x64, .f32⟩ : BufTy).Contents (Elt Ideal)) (s : (⟨S1x1, .f32⟩ : BufTy).Contents (Elt Ideal))
    (hc : S100000.ShapeCasts S100000x1) :
    fn3 a (fun i => shapeCast main_v16.ty.shape n hc i) b s
      = fn3 a (broadcastInDim S100000x1 ![0] Cert.ReferenceIdeal.Gen.bcast_S100000_S100000x1_0 n) b s :=
  congrArg (fun col => fn3 a col b s) (Cert.Recast.column_eq n hc Cert.ReferenceIdeal.Gen.bcast_S100000_S100000x1_0)

/-- … and its bias row the same whether the bias was re-read or repeated. -/
theorem fn3_row (a : (⟨S100000x64, .f32⟩ : BufTy).Contents (Elt Ideal)) (n : (⟨S100000x1, .f32⟩ : BufTy).Contents (Elt Ideal)) (b : (⟨S64, .f32⟩ : BufTy).Contents (Elt Ideal)) (s : (⟨S1x1, .f32⟩ : BufTy).Contents (Elt Ideal))
    (hb : S64.ShapeCasts S1x64) :
    fn3 a n (fun i => shapeCast main_v42.ty.shape b hb i) s
      = fn3 a n (broadcastInDim S1x64 ![1] Cert.ReferenceIdeal.Gen.bcast_S64_S1x64_1 b) s :=
  congrArg (fun row => fn3 a n row s) (Cert.Recast.row_eq b hb Cert.ReferenceIdeal.Gen.bcast_S64_S1x64_1)

/-- … and its single entry the same whether the one-entry vector was re-read or repeated. -/
theorem fn3_one (a : (⟨S100000x64, .f32⟩ : BufTy).Contents (Elt Ideal)) (n : (⟨S100000x1, .f32⟩ : BufTy).Contents (Elt Ideal)) (b : (⟨S1x64, .f32⟩ : BufTy).Contents (Elt Ideal)) (s : (⟨S1, .f32⟩ : BufTy).Contents (Elt Ideal))
    (hs : S1.ShapeCasts S1x1) :
    fn3 a n b (fun i => shapeCast main_v43.ty.shape s hs i)
      = fn3 a n b (broadcastInDim S1x1 ![1] Cert.ReferenceIdeal.Gen.bcast_S1_S1x1_1 s) :=
  congrArg (fun one => fn3 a n b one) (Cert.Recast.row_eq s hs Cert.ReferenceIdeal.Gen.bcast_S1_S1x1_1)

/-- Region 4's stage reads its column the same whether the norm vector was re-read or repeated. -/
theorem fn4_col (h : (⟨S100000x64, .f32⟩ : BufTy).Contents (Elt Ideal)) (n : (⟨S100000, .f32⟩ : BufTy).Contents (Elt Ideal)) (W : (⟨S64x32, .f32⟩ : BufTy).Contents (Elt Ideal))
    (hc : S100000.ShapeCasts S100000x1) :
    fn4 h (fun i => shapeCast main_v11.ty.shape n hc i) W
      = fn4 h (broadcastInDim S100000x1 ![0] Cert.ReferenceIdeal.Gen.bcast_S100000_S100000x1_0 n) W :=
  congrArg (fun col => fn4 h col W) (Cert.Recast.column_eq n hc Cert.ReferenceIdeal.Gen.bcast_S100000_S100000x1_0)

/-- Region 5's stage reads its column the same whether the norm vector was re-read or repeated. -/
theorem fn5_col (a : (⟨S100000x32, .f32⟩ : BufTy).Contents (Elt Ideal)) (n : (⟨S100000, .f32⟩ : BufTy).Contents (Elt Ideal)) (b : (⟨S1x32, .f32⟩ : BufTy).Contents (Elt Ideal)) (s : (⟨S1x1, .f32⟩ : BufTy).Contents (Elt Ideal))
    (hc : S100000.ShapeCasts S100000x1) :
    fn5 a (fun i => shapeCast main_v16.ty.shape n hc i) b s
      = fn5 a (broadcastInDim S100000x1 ![0] Cert.ReferenceIdeal.Gen.bcast_S100000_S100000x1_0 n) b s :=
  congrArg (fun col => fn5 a col b s) (Cert.Recast.column_eq n hc Cert.ReferenceIdeal.Gen.bcast_S100000_S100000x1_0)

/-- … and its bias row the same whether the bias was re-read or repeated. -/
theorem fn5_row (a : (⟨S100000x32, .f32⟩ : BufTy).Contents (Elt Ideal)) (n : (⟨S100000x1, .f32⟩ : BufTy).Contents (Elt Ideal)) (b : (⟨S32, .f32⟩ : BufTy).Contents (Elt Ideal)) (s : (⟨S1x1, .f32⟩ : BufTy).Contents (Elt Ideal))
    (hb : S32.ShapeCasts S1x32) :
    fn5 a n (fun i => shapeCast main_v56.ty.shape b hb i) s
      = fn5 a n (broadcastInDim S1x32 ![1] Cert.ReferenceIdeal.Gen.bcast_S32_S1x32_1 b) s :=
  congrArg (fun row => fn5 a n row s) (Cert.Recast.row_eq b hb Cert.ReferenceIdeal.Gen.bcast_S32_S1x32_1)

/-- … and its single entry the same whether the one-entry vector was re-read or repeated. -/
theorem fn5_one (a : (⟨S100000x32, .f32⟩ : BufTy).Contents (Elt Ideal)) (n : (⟨S100000x1, .f32⟩ : BufTy).Contents (Elt Ideal)) (b : (⟨S1x32, .f32⟩ : BufTy).Contents (Elt Ideal)) (s : (⟨S1, .f32⟩ : BufTy).Contents (Elt Ideal))
    (hs : S1.ShapeCasts S1x1) :
    fn5 a n b (fun i => shapeCast main_v57.ty.shape s hs i)
      = fn5 a n b (broadcastInDim S1x1 ![1] Cert.ReferenceIdeal.Gen.bcast_S1_S1x1_1 s) :=
  congrArg (fun one => fn5 a n b one) (Cert.Recast.row_eq s hs Cert.ReferenceIdeal.Gen.bcast_S1_S1x1_1)

/-- Region 6's stage reads its column the same whether the norm vector was re-read or repeated. -/
theorem fn6_col (h : (⟨S100000x32, .f32⟩ : BufTy).Contents (Elt Ideal)) (n : (⟨S100000, .f32⟩ : BufTy).Contents (Elt Ideal)) (W : (⟨S32x16, .f32⟩ : BufTy).Contents (Elt Ideal))
    (hc : S100000.ShapeCasts S100000x1) :
    fn6 h (fun i => shapeCast main_v11.ty.shape n hc i) W
      = fn6 h (broadcastInDim S100000x1 ![0] Cert.ReferenceIdeal.Gen.bcast_S100000_S100000x1_0 n) W :=
  congrArg (fun col => fn6 h col W) (Cert.Recast.column_eq n hc Cert.ReferenceIdeal.Gen.bcast_S100000_S100000x1_0)

/-- Region 7's stage reads its column the same whether the norm vector was re-read or repeated. -/
theorem fn7_col (a : (⟨S100000x16, .f32⟩ : BufTy).Contents (Elt Ideal)) (n : (⟨S100000, .f32⟩ : BufTy).Contents (Elt Ideal)) (b : (⟨S1x16, .f32⟩ : BufTy).Contents (Elt Ideal)) (s : (⟨S1x1, .f32⟩ : BufTy).Contents (Elt Ideal))
    (hc : S100000.ShapeCasts S100000x1) :
    fn7 a (fun i => shapeCast main_v16.ty.shape n hc i) b s
      = fn7 a (broadcastInDim S100000x1 ![0] Cert.ReferenceIdeal.Gen.bcast_S100000_S100000x1_0 n) b s :=
  congrArg (fun col => fn7 a col b s) (Cert.Recast.column_eq n hc Cert.ReferenceIdeal.Gen.bcast_S100000_S100000x1_0)

/-- … and its bias row the same whether the bias was re-read or repeated. -/
theorem fn7_row (a : (⟨S100000x16, .f32⟩ : BufTy).Contents (Elt Ideal)) (n : (⟨S100000x1, .f32⟩ : BufTy).Contents (Elt Ideal)) (b : (⟨S16, .f32⟩ : BufTy).Contents (Elt Ideal)) (s : (⟨S1x1, .f32⟩ : BufTy).Contents (Elt Ideal))
    (hb : S16.ShapeCasts S1x16) :
    fn7 a n (fun i => shapeCast main_v70.ty.shape b hb i) s
      = fn7 a n (broadcastInDim S1x16 ![1] Cert.ReferenceIdeal.Gen.bcast_S16_S1x16_1 b) s :=
  congrArg (fun row => fn7 a n row s) (Cert.Recast.row_eq b hb Cert.ReferenceIdeal.Gen.bcast_S16_S1x16_1)

/-- … and its single entry the same whether the one-entry vector was re-read or repeated. -/
theorem fn7_one (a : (⟨S100000x16, .f32⟩ : BufTy).Contents (Elt Ideal)) (n : (⟨S100000x1, .f32⟩ : BufTy).Contents (Elt Ideal)) (b : (⟨S1x16, .f32⟩ : BufTy).Contents (Elt Ideal)) (s : (⟨S1, .f32⟩ : BufTy).Contents (Elt Ideal))
    (hs : S1.ShapeCasts S1x1) :
    fn7 a n b (fun i => shapeCast main_v71.ty.shape s hs i)
      = fn7 a n b (broadcastInDim S1x1 ![1] Cert.ReferenceIdeal.Gen.bcast_S1_S1x1_1 s) :=
  congrArg (fun one => fn7 a n b one) (Cert.Recast.row_eq s hs Cert.ReferenceIdeal.Gen.bcast_S1_S1x1_1)

variable (m : (ℓ : Loc nD τ sig) → Buf (Elt Ideal) ℓ) (ρ : Dev nD → PrngReg)

set_option maxHeartbeats 4000000 in
/-- What the result array holds at the last boundary is the reference's last stage of the launch contents of the
    arguments. -/
theorem result_eq (c : Dev nD) :
    W13 m ρ c (Proc.devRef .tc main_v72)
      = Cert.ReferenceIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [W13_eq m ρ c]; dsimp only [W12]
  rw [W11_eq m ρ c, W10_eq m ρ c]; dsimp only [W9]
  rw [W8_eq m ρ c, W7_eq m ρ c]; dsimp only [W6]
  rw [W5_eq m ρ c, W4_eq m ρ c]; dsimp only [W3]
  rw [W2_eq m ρ c]; dsimp only [W1, W0]
  after_results_simp
  rw (config := { transparency := .default }) [fn7_col, fn7_row, fn7_one, fn6_col, fn5_col, fn5_row, fn5_one, fn4_col, fn3_col, fn3_row, fn3_one, fn2_col, fn1_col, fn1_row, fn1_one, fn0_col]
  rfl

end Cert.KernelIdeal.Bridge

end
-- ==== Proof.lean ====
/-
  A four-layer graph convolution: blocked kernel regions against whole-array operations, on the extended reals.

  Both programs take node features x, edge lists src and dst, and per layer a weight W, a bias b and a single extra
  bias sb.  Both first count out- and in-degrees by scattering ones, clip them below at one and raise them to the
  power −1/2.  A layer scales every row of its input by the source norm, multiplies by W, gathers the rows at src and
  scatter-adds them at dst, scales every row by the destination norm, adds b and sb, and clips at zero; after the
  fourth layer every row is divided by the sum of its exponentials, the row's maximum subtracted first.

  The kernel program runs the two dense parts of every layer as block-wise regions over twenty blocks of 5000 rows
  (the product into a zero accumulator, through a narrower float format that is the identity on the extended reals);
  the reference runs them as whole-array operations.  Entry by entry the two spellings are the same sums, maxima and
  quotients of the same entries, in the same order: no algebraic law is used beyond 0 + x = x, and no finiteness.
  The degree counts, the gather and the scatter-add are the same operations on both sides and are never opened.

  The three frame claims are the generated ones (the reference's from its generated run); the idealization rewrote
  no operation, so its claim is trivial; the value claim puts the kernel run's result, read through the line of
  operations the regions act as, beside the reference run's stage-by-stage value.
-/
import proofs.«171604_j10316511445242_1_alg».proof.Defs
import proofs.«171604_j10316511445242_1_alg».proof.Proof.Gen.Kernel
import proofs.«171604_j10316511445242_1_alg».proof.Proof.Gen.Kernel.Skeleton
import proofs.«171604_j10316511445242_1_alg».proof.Proof.Gen.Kernel.Launch
import proofs.«171604_j10316511445242_1_alg».proof.Proof.Gen.Kernel.Points
import proofs.«171604_j10316511445242_1_alg».proof.Proof.Gen.Kernel.Frame
import proofs.«171604_j10316511445242_1_alg».proof.Proof.Gen.KernelIdeal
import proofs.«171604_j10316511445242_1_alg».proof.Proof.Gen.KernelIdeal.Skeleton
import proofs.«171604_j10316511445242_1_alg».proof.Proof.Gen.KernelIdeal.Launch
import proofs.«171604_j10316511445242_1_alg».proof.Proof.Gen.KernelIdeal.Points
import proofs.«171604_j10316511445242_1_alg».proof.Proof.Gen.KernelIdeal.Frame
import proofs.«171604_j10316511445242_1_alg».proof.Proof.Gen.ReferenceIdeal
import proofs.«171604_j10316511445242_1_alg».proof.Proof.Gen.ReferenceIdeal.Run
import proofs.«171604_j10316511445242_1_alg».proof.Proof.Gen.ReferenceIdeal.Read
import proofs.«171604_j10316511445242_1_alg».proof.Proof.Gen.Pre_finite_inputs
import proofs.«171604_j10316511445242_1_alg».proof.Proof.KRun
import proofs.«171604_j10316511445242_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array after its run and the reference's after its run are the same stage-by-stage value of
    arguments that agree. -/
theorem algebraic : Cert.algebraic_KernelIdeal_ReferenceIdeal := by
  intro m ρ m' ρ' _ hagree
  refine ⟨fun c => Cert.KernelIdeal.Gen.W13 m ρ c (Proc.devRef .tc Cert.KernelIdeal.main_v72),
    Cert.KernelIdeal.Result.run_fold (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  show Cert.ReferenceIdeal.Value.res_main_v121 m' c
    = Cert.KernelIdeal.Gen.W13 m ρ c (Proc.devRef .tc Cert.KernelIdeal.main_v72)
  rw [Cert.ReferenceIdeal.Read.val_main_v121_eq, Cert.KernelIdeal.Bridge.result_eq m ρ c,
    a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
